-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S1x256 : Shape := ⟨2, ![1, 256]⟩
abbrev S256 : Shape := ⟨1, ![256]⟩
abbrev S2048 : Shape := ⟨1, ![2048]⟩
abbrev S_ : Shape := ⟨0, ![]⟩

abbrev nBuf : Space → Nat
  | .hbm => 55
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048, .f32⟩
  | .hbm, ⟨22, _⟩ => ⟨S2048, .i1⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .i1⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x256, .f32⟩
  | .local _ .vmem, ⟨4, _⟩ => ⟨S2048x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x2048, .f32⟩
  | .local _ .vmem, ⟨10, _⟩ => ⟨S256x2048, .f32⟩
  | .local _ .vmem, ⟨11, _⟩ => ⟨S2048x2048, .bf16⟩
  | .local _ .vmem, ⟨12, _⟩ => ⟨S2048x256, .f32⟩
  | .local _ .vmem, ⟨13, _⟩ => ⟨S2048x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  transposes_S2048x256_p1_0_S256x2048 : S2048x256.Transposes [1, 0] S256x2048
  reduces_S256x2048_S256 : S256x2048.Reduces [1] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x2048_S2048 : S1x2048.ShapeCasts S2048
  reducesTo_S2048_S_d0 : S2048.ReducesTo [0] S_
  h_S_ : 0 < S_.numel
  bcast_S_S2048 : S_.BroadcastsInDim S2048 (![] : Fin 0 → Fin S2048.rank)
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .f32 = 32 ∨ (Rect.block (s := S2048x2048) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x2048.size a
  hwx1_2 : ∀ i : grid1.Coords, EltTy.bits .f32 = 32 ∨ (Rect.block (s := S2048x2048) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x2048.size a
  hwx1_3 : ∀ i : grid1.Coords, EltTy.bits .f32 = 32 ∨ (Rect.block (s := S1x2048) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x2048.size a
  hwx1_4 : ∀ i : grid1.Coords, EltTy.bits .f32 = 32 ∨ (Rect.block (s := S1x2048) S1x256.size (cc1_transform_4 i) (hinb1_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S_ : Shape := ⟨0, ![]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .i1⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .i1⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_cst_10 : Ref sig .tc := ⟨.hbm, 40, rfl⟩
abbrev main_v25 : Ref sig .tc := ⟨.hbm, 41, rfl⟩
abbrev main_v26 : Ref sig .tc := ⟨.hbm, 42, rfl⟩
abbrev main_cst_11 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_13 : Ref sig .tc := ⟨.hbm, 54, rfl⟩
abbrev main_v34 : Ref sig .tc := ⟨.hbm, 55, rfl⟩
abbrev main_cst_14 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_15 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  reducesTo_S2048_S_d0 : S2048.ReducesTo [0] S_
  transposes_S2048x2048_S2048x2048_1_0 : S2048x2048.Transposes [1, 0] S2048x2048
  bcast_S_S2048 : S_.BroadcastsInDim S2048 (![] : Fin 0 → Fin S2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.BodyBits.lean ====
/-
  The two pallas calls of the kernel, each taken alone: what a grid point's body is handed and what it leaves, as
  separation-logic triples, and the bookkeeping the pipeline's launch theorems ask for (which contents every window's
  staging buffer holds before and after the body at every point). Both calls run the same body text, once per graph.
-/
import proofs.«173556_j35811437314538_2_alg».proof.Proof.Gen.Kernel.Launch
import proofs.«173556_j35811437314538_2_alg».proof.Proof.Gen.Kernel.Skeleton
import proofs.«173556_j35811437314538_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: one graph's row blocks

The grid has 8 points; at point `t` the body is handed rows `256 t … 256 t + 255` of the graph (window 0), the whole
graph rounded to bf16 (window 1, fetched once) and columns `256 t … 256 t + 255` of the graph (window 2), and writes
entries `256 t … 256 t + 255` of the triangle row (window 3) and of the degree row (window 4). Windows 0 and 2 are
two views of ONE array, the graph itself. -/

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rRows0 : Rect S256x2048 := Rect.unit (s := S256x2048) ![0, 0] S256x2048.size inb_S256x2048_S256x2048_0_0
abbrev rAll0 : Rect S2048x2048 := Rect.unit (s := S2048x2048) ![0, 0] S2048x2048.size inb_S2048x2048_S2048x2048_0_0
abbrev rCols0 : Rect S2048x256 := Rect.unit (s := S2048x256) ![0, 0] S2048x256.size inb_S2048x256_S2048x256_0_0
abbrev rOut0 : Rect S1x256 := Rect.unit (s := S1x256) ![0, 0] S1x256.size inb_S1x256_S1x256_0_0

/-- The triangle row's staging buffer after the body: its one store, of the payload of the three loads. -/
def outTri0 (x0 : Vec F S256x2048 .f32) (x1 : Vec F S2048x2048 .bf16) (x2 : Vec F S2048x256 .f32) : Vec F S1x256 .f32 :=
  View.canon [⟨rOut0, k0_pay1 (View.ld x0 rRows0) (View.ld x1 rAll0) (View.ld x2 rCols0)⟩]
/-- The degree row's staging buffer after the body: its one store, of the payload of the row block. -/
def outDeg0 (x0 : Vec F S256x2048 .f32) : Vec F S1x256 .f32 :=
  View.canon [⟨rOut0, k0_pay2 (View.ld x0 rRows0)⟩]

/-- The one store covers the buffer. -/
theorem coverOut0 (p0 : Vec F S1x256 .f32) (y : S1x256.Idx) :
    ∃ pc ∈ ([⟨rOut0, p0⟩] : List (View.Piece (Elt F) S1x256 .f32)), y ∈ pc.1.set :=
  View.cover_of_tiled [⟨rOut0, p0⟩] S1x256.size (by rfl) y

set_option maxHeartbeats 1000000 in
/-- The body on whole staging memrefs, the inputs' at read contents and the outputs' at anything, runs to the
    continuation holding the inputs' as they were and each output's at its store's payload. -/
theorem sound_kernel0 (c : Dev nD) (E : Set ℕ) (i : grid0.Coords)
    (arg1 : Memref sig .tc .vmem S256x2048 .f32) (harg1 : arg1.IsWhole) (arg2 : Memref sig .tc .vmem S2048x2048 .bf16) (harg2 : arg2.IsWhole)
    (arg3 : Memref sig .tc .vmem S2048x256 .f32) (harg3 : arg3.IsWhole) (arg4 : Memref sig .tc .vmem S1x256 .f32) (harg4 : arg4.IsWhole)
    (arg5 : Memref sig .tc .vmem S1x256 .f32) (harg5 : arg5.IsWhole)
    (x0 : Vec F S256x2048 .f32) (x1 : Vec F S2048x2048 .bf16) (x2 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTri0 x0 x1 x2) ∗ owns (c : Thread nD τ) arg5 fullShare (outDeg0 x0)) -∗ K ⟨⟩))
      ⊢ wp frame (wpE (defs₀ (F := F)) Variants.none c none) E (cc0__tri_deg_kernel i arg1 harg1 arg2 harg2 arg3 harg3 arg4 harg4 arg5 harg5) K := by
  simp only [cc0__tri_deg_kernel_eq_skeleton]; unfold cc0__tri_deg_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut0 _)
  iexists _; isplitr
  swap; · iexact H4
  ipureintro
  exact View.read_writes_eq_canon _ _ _ (coverOut0 _)

/-! ## The proof data -/

/-- The proof data of the pipeline on core `c`: the arrays as the region finds them; after the body at point `t` each
    input's buffer at its block and each output's at its payload of the input blocks; the invariant the scoped rest and
    the generator register, untouched; nothing owed. The graph is held through two windows: window 0 holds the left
    half of its full share and window 2 the right half; the bf16 copy, a window of its own, is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outTri0 (iblk0 V c 0 t) (iblk0 V c 1 t) (iblk0 V c 2 t)
    | ⟨4, _⟩ => outDeg0 (iblk0 V c 0 t)
  Φ _ := Pipeline.ΦA spec0 c
  q w := match w with
    | ⟨0, _⟩ => fullShare.left
    | ⟨1, _⟩ => fullShare
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = outTri0 (iblk0 V c 0 t) (iblk0 V c 1 t) (iblk0 V c 2 t) := by dsimp only [dat0]
theorem after0_4 (c : Dev nD) (t : Fin cfg0.N) : (dat0 V c).after 4 t = outDeg0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Pallas call 1: one graph's row blocks

The grid has 8 points; at point `t` the body is handed rows `256 t … 256 t + 255` of the graph (window 0), the whole
graph rounded to bf16 (window 1, fetched once) and columns `256 t … 256 t + 255` of the graph (window 2), and writes
entries `256 t … 256 t + 255` of the triangle row (window 3) and of the degree row (window 4). Windows 0 and 2 are
two views of ONE array, the graph itself. -/

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev rRows1 : Rect S256x2048 := Rect.unit (s := S256x2048) ![0, 0] S256x2048.size inb_S256x2048_S256x2048_0_0
abbrev rAll1 : Rect S2048x2048 := Rect.unit (s := S2048x2048) ![0, 0] S2048x2048.size inb_S2048x2048_S2048x2048_0_0
abbrev rCols1 : Rect S2048x256 := Rect.unit (s := S2048x256) ![0, 0] S2048x256.size inb_S2048x256_S2048x256_0_0
abbrev rOut1 : Rect S1x256 := Rect.unit (s := S1x256) ![0, 0] S1x256.size inb_S1x256_S1x256_0_0

/-- The triangle row's staging buffer after the body: its one store, of the payload of the three loads. -/
def outTri1 (x0 : Vec F S256x2048 .f32) (x1 : Vec F S2048x2048 .bf16) (x2 : Vec F S2048x256 .f32) : Vec F S1x256 .f32 :=
  View.canon [⟨rOut1, k1_pay1 (View.ld x0 rRows1) (View.ld x1 rAll1) (View.ld x2 rCols1)⟩]
/-- The degree row's staging buffer after the body: its one store, of the payload of the row block. -/
def outDeg1 (x0 : Vec F S256x2048 .f32) : Vec F S1x256 .f32 :=
  View.canon [⟨rOut1, k1_pay2 (View.ld x0 rRows1)⟩]

/-- The one store covers the buffer. -/
theorem coverOut1 (p0 : Vec F S1x256 .f32) (y : S1x256.Idx) :
    ∃ pc ∈ ([⟨rOut1, p0⟩] : List (View.Piece (Elt F) S1x256 .f32)), y ∈ pc.1.set :=
  View.cover_of_tiled [⟨rOut1, p0⟩] S1x256.size (by rfl) y

set_option maxHeartbeats 1000000 in
/-- The body on whole staging memrefs, the inputs' at read contents and the outputs' at anything, runs to the
    continuation holding the inputs' as they were and each output's at its store's payload. -/
theorem sound_kernel1 (c : Dev nD) (E : Set ℕ) (i : grid1.Coords)
    (arg1 : Memref sig .tc .vmem S256x2048 .f32) (harg1 : arg1.IsWhole) (arg2 : Memref sig .tc .vmem S2048x2048 .bf16) (harg2 : arg2.IsWhole)
    (arg3 : Memref sig .tc .vmem S2048x256 .f32) (harg3 : arg3.IsWhole) (arg4 : Memref sig .tc .vmem S1x256 .f32) (harg4 : arg4.IsWhole)
    (arg5 : Memref sig .tc .vmem S1x256 .f32) (harg5 : arg5.IsWhole)
    (x0 : Vec F S256x2048 .f32) (x1 : Vec F S2048x2048 .bf16) (x2 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTri1 x0 x1 x2) ∗ owns (c : Thread nD τ) arg5 fullShare (outDeg1 x0)) -∗ K ⟨⟩))
      ⊢ wp frame (wpE (defs₀ (F := F)) Variants.none c none) E (cc1__tri_deg_kernel i arg1 harg1 arg2 harg2 arg3 harg3 arg4 harg4 arg5 harg5) K := by
  simp only [cc1__tri_deg_kernel_eq_skeleton]; unfold cc1__tri_deg_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut1 _)
  iexists _; isplitr
  swap; · iexact H4
  ipureintro
  exact View.read_writes_eq_canon _ _ _ (coverOut1 _)

/-! ## The proof data -/

/-- The proof data of the pipeline on core `c`: the arrays as the region finds them; after the body at point `t` each
    input's buffer at its block and each output's at its payload of the input blocks; the invariant the scoped rest and
    the generator register, untouched; nothing owed. The graph is held through two windows: window 0 holds the left
    half of its full share and window 2 the right half; the bf16 copy, a window of its own, is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTri1 (iblk1 V c 0 t) (iblk1 V c 1 t) (iblk1 V c 2 t)
    | ⟨4, _⟩ => outDeg1 (iblk1 V c 0 t)
  Φ _ := Pipeline.ΦA spec1 c
  q w := match w with
    | ⟨0, _⟩ => fullShare.left
    | ⟨1, _⟩ => fullShare
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outTri1 (iblk1 V c 0 t) (iblk1 V c 1 t) (iblk1 V c 2 t) := by dsimp only [dat1]
theorem after1_4 (c : Dev nD) (t : Fin cfg1.N) : (dat1 V c).after 4 t = outDeg1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.RunBits.lean ====
/-
  The whole run of the kernel's program: two casts to bf16, the first pallas call, two reshapes, the second pallas
  call, and the scalar tail, as nine items run one after the other on each TensorCore. Each call reads its graph
  through two windows on one buffer, so the buffer's full share is dealt between them at the call's entry and joined
  again at its exit. The run ends with every unscoped buffer at a named fold of the launch memory: the arguments'
  buffers untouched, the calls' result rows at what their write-backs leave, everything else at the host
  operations' results.
-/
import proofs.«173556_j35811437314538_2_alg».proof.Proof.BodyBits
import proofs.«173556_j35811437314538_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pallas call 0: the graph's one buffer dealt between its two windows

The buffers behind the call's five windows are four: the graph (read through windows 0 and 2), its bf16 copy and the
two result rows. Held whole, the graph's buffer is the two halves of its full share, one per window; the other three
are their windows' holdings as they stand. -/

section Deal0
variable (V : (c : Dev nD) → (b : Ref sig .tc) → Buf (Elt F) ((c : Thread nD τ).loc b))

/-- The windows' holdings, each array a whole buffer. -/
theorem arrays0_eq (c : Dev nD) (Fs : (w : Fin cfg0.W) → Buf (Elt F) ((cfg0.win w).arr.view.loc (c : Thread nD τ))) :
    ((dat0 V c).arrays Fs : sProp 𝕄)
      = bigSep Finset.univ fun w : Fin 5 => (((c : Thread nD τ).loc (Pipeline.arrRef spec0 w)) ↦{(dat0 V c).share w} Fs w : sProp 𝕄) := by
  unfold Dat.arrays
  exact bigSep_congr fun w _ => by rw [(arr_whole0 w).set_eq_univ]

/-- The deal, in both directions, at any contents. -/
theorem deal0 (c : Dev nD) (W : (b : Ref sig .tc) → Buf (Elt F) ((c : Thread nD τ).loc b)) :
    ((Pipeline.arrBufs spec0 c W : sProp 𝕄) ⊢ (dat0 V c).arrays (fun w => W (Pipeline.arrRef spec0 w)))
    ∧ (((dat0 V c).arrays (fun w => W (Pipeline.arrRef spec0 w)) : sProp 𝕄) ⊢ Pipeline.arrBufs spec0 c W) := by
  have e1 : (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v2_0) ↦{fullShare} W main_v2_0) ∗ (((c : Thread nD τ).loc main_v2_1) ↦{fullShare} W main_v2_1)) := by
    unfold Pipeline.arrBufs
    rw [bigSep_eq_bigSepL_of_eq [main_arg0, main_v0, main_v2_0, main_v2_1] (by decide) (by decide)]
    rfl
  have e2 : ((dat0 V c).arrays (fun w => W (Pipeline.arrRef spec0 w)) : sProp 𝕄)
      = iprop((((c : Thread nD τ).loc main_arg0) ↦{fullShare.left} W main_arg0) ∗ (((c : Thread nD τ).loc main_v0) ↦{fullShare} W main_v0)
          ∗ (((c : Thread nD τ).loc main_arg0) ↦{fullShare.right} W main_arg0)
          ∗ (((c : Thread nD τ).loc main_v2_0) ↦{fullShare} W main_v2_0) ∗ (((c : Thread nD τ).loc main_v2_1) ↦{fullShare} W main_v2_1)) := by
    rw [arrays0_eq, bigSep_W0]
    rfl
  rw [e1, e2]
  have hs := pointsTo_share (Ix := Unit) (Name := ℕ) (U := UR sig nD τ) (Lvl := ℕ) (ℓ := (c : Thread nD τ).loc main_arg0) (I := Finset.univ) (f := W main_arg0)
    (PosShare.mem_left_op_right fullShare)
  constructor
  · iintro ⟨Ha, Hb, Hc, Hd⟩
    ihave H := hs.1 $$ Ha
    icases H with ⟨Hl, Hr⟩
    isplitl [Hl]; · iexact Hl
    isplitl [Hb]; · iexact Hb
    isplitl [Hr]; · iexact Hr
    isplitl [Hc]; · iexact Hc
    iexact Hd
  · iintro ⟨Hl, Hb, Hr, Hc, Hd⟩
    isplitl [Hl Hr]
    · iapply hs.2
      isplitl [Hl]; · iexact Hl
      iexact Hr
    isplitl [Hb]; · iexact Hb
    isplitl [Hc]; · iexact Hc
    iexact Hd

end Deal0

/-! ## Pallas call 1: the graph's one buffer dealt between its two windows

The buffers behind the call's five windows are four: the graph (read through windows 0 and 2), its bf16 copy and the
two result rows. Held whole, the graph's buffer is the two halves of its full share, one per window; the other three
are their windows' holdings as they stand. -/

section Deal1
variable (V : (c : Dev nD) → (b : Ref sig .tc) → Buf (Elt F) ((c : Thread nD τ).loc b))

/-- The windows' holdings, each array a whole buffer. -/
theorem arrays1_eq (c : Dev nD) (Fs : (w : Fin cfg1.W) → Buf (Elt F) ((cfg1.win w).arr.view.loc (c : Thread nD τ))) :
    ((dat1 V c).arrays Fs : sProp 𝕄)
      = bigSep Finset.univ fun w : Fin 5 => (((c : Thread nD τ).loc (Pipeline.arrRef spec1 w)) ↦{(dat1 V c).share w} Fs w : sProp 𝕄) := by
  unfold Dat.arrays
  exact bigSep_congr fun w _ => by rw [(arr_whole1 w).set_eq_univ]

/-- The deal, in both directions, at any contents. -/
theorem deal1 (c : Dev nD) (W : (b : Ref sig .tc) → Buf (Elt F) ((c : Thread nD τ).loc b)) :
    ((Pipeline.arrBufs spec1 c W : sProp 𝕄) ⊢ (dat1 V c).arrays (fun w => W (Pipeline.arrRef spec1 w)))
    ∧ (((dat1 V c).arrays (fun w => W (Pipeline.arrRef spec1 w)) : sProp 𝕄) ⊢ Pipeline.arrBufs spec1 c W) := by
  have e1 : (Pipeline.arrBufs spec1 c W : sProp 𝕄)
      = iprop((((c : Thread nD τ).loc main_arg1) ↦{fullShare} W main_arg1) ∗ (((c : Thread nD τ).loc main_v1) ↦{fullShare} W main_v1)
          ∗ (((c : Thread nD τ).loc main_v5_0) ↦{fullShare} W main_v5_0) ∗ (((c : Thread nD τ).loc main_v5_1) ↦{fullShare} W main_v5_1)) := by
    unfold Pipeline.arrBufs
    rw [bigSep_eq_bigSepL_of_eq [main_arg1, main_v1, main_v5_0, main_v5_1] (by decide) (by decide)]
    rfl
  have e2 : ((dat1 V c).arrays (fun w => W (Pipeline.arrRef spec1 w)) : sProp 𝕄)
      = iprop((((c : Thread nD τ).loc main_arg1) ↦{fullShare.left} W main_arg1) ∗ (((c : Thread nD τ).loc main_v1) ↦{fullShare} W main_v1)
          ∗ (((c : Thread nD τ).loc main_arg1) ↦{fullShare.right} W main_arg1)
          ∗ (((c : Thread nD τ).loc main_v5_0) ↦{fullShare} W main_v5_0) ∗ (((c : Thread nD τ).loc main_v5_1) ↦{fullShare} W main_v5_1)) := by
    rw [arrays1_eq, bigSep_W1]
    rfl
  rw [e1, e2]
  have hs := pointsTo_share (Ix := Unit) (Name := ℕ) (U := UR sig nD τ) (Lvl := ℕ) (ℓ := (c : Thread nD τ).loc main_arg1) (I := Finset.univ) (f := W main_arg1)
    (PosShare.mem_left_op_right fullShare)
  constructor
  · iintro ⟨Ha, Hb, Hc, Hd⟩
    ihave H := hs.1 $$ Ha
    icases H with ⟨Hl, Hr⟩
    isplitl [Hl]; · iexact Hl
    isplitl [Hb]; · iexact Hb
    isplitl [Hr]; · iexact Hr
    isplitl [Hc]; · iexact Hc
    iexact Hd
  · iintro ⟨Hl, Hb, Hr, Hc, Hd⟩
    isplitl [Hl Hr]
    · iapply hs.2
      isplitl [Hl]; · iexact Hl
      iexact Hr
    isplitl [Hb]; · iexact Hb
    isplitl [Hc]; · iexact Hc
    iexact Hd

end Deal1

/-! # The run of @main, item by item

## The TensorCore's buffer contents between items: a fold from the launch memory -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two casts to bf16 (the first call's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- The first graph's triangle row and degree row as the first call leaves them: its write-backs folded. -/
def tri0 (c : Dev nD) : Buf (Elt F) ((c : Thread nD τ).loc main_v2_0) := (dat0 (E1 m ρ) c).arrAt 3 cfg0.N
def deg0 (c : Dev nD) : Buf (Elt F) ((c : Thread nD τ).loc main_v2_1) := (dat0 (E1 m ρ) c).arrAt 4 cfg0.N
/-- At the first call's exit: its two result rows, every other buffer as entered. -/
def W2 (c : Dev nD) : Valuation τ sig (Elt F) :=
  Function.update (Function.update (W1 m ρ c) (Proc.devRef .tc main_v2_0) (tri0 m ρ c)) (Proc.devRef .tc main_v2_1) (deg0 m ρ c)
theorem W2_tri (c : Dev nD) : W2 m ρ c (Proc.devRef .tc main_v2_0) = tri0 m ρ c := by
  unfold W2
  rw [Function.update_of_ne (StableHlo.devRef_ne_of_ne (by decide) : (Proc.devRef .tc main_v2_0 : DevRef τ sig) ≠ Proc.devRef .tc main_v2_1), Function.update_self]
theorem W2_deg (c : Dev nD) : W2 m ρ c (Proc.devRef .tc main_v2_1) = deg0 m ρ c := by
  unfold W2; rw [Function.update_self]
theorem W2_of_ne (c : Dev nD) (b : Ref sig .tc) (h0 : b ≠ main_v2_0) (h1 : b ≠ main_v2_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
abbrev E2 : (c : Dev nD) → (b : Ref sig .tc) → Buf (Elt F) ((c : Thread nD τ).loc b) := fun c b => W2 m ρ c b
/-- After the two result rows are reshaped to vectors (the second call's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- The second graph's triangle row and degree row as the second call leaves them. -/
def tri1 (c : Dev nD) : Buf (Elt F) ((c : Thread nD τ).loc main_v5_0) := (dat1 (E3 m ρ) c).arrAt 3 cfg1.N
def deg1 (c : Dev nD) : Buf (Elt F) ((c : Thread nD τ).loc main_v5_1) := (dat1 (E3 m ρ) c).arrAt 4 cfg1.N
def W4 (c : Dev nD) : Valuation τ sig (Elt F) :=
  Function.update (Function.update (W3 m ρ c) (Proc.devRef .tc main_v5_0) (tri1 m ρ c)) (Proc.devRef .tc main_v5_1) (deg1 m ρ c)
theorem W4_tri (c : Dev nD) : W4 m ρ c (Proc.devRef .tc main_v5_0) = tri1 m ρ c := by
  unfold W4
  rw [Function.update_of_ne (StableHlo.devRef_ne_of_ne (by decide) : (Proc.devRef .tc main_v5_0 : DevRef τ sig) ≠ Proc.devRef .tc main_v5_1), Function.update_self]
theorem W4_deg (c : Dev nD) : W4 m ρ c (Proc.devRef .tc main_v5_1) = deg1 m ρ c := by
  unfold W4; rw [Function.update_self]
theorem W4_of_ne (c : Dev nD) (b : Ref sig .tc) (h0 : b ≠ main_v5_0) (h1 : b ≠ main_v5_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
abbrev E4 : (c : Dev nD) → (b : Ref sig .tc) → Buf (Elt F) ((c : Thread nD τ).loc b) := fun c b => W4 m ρ c b
/-- After each of the five stretches of host operations that follow the second call. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)

/-- At a call's exit each of its arrays holds what the pipeline leaves — an input as entered, a result row its
    write-backs — and every other buffer what it held at entry. -/
theorem hF0 (c : Dev nD) : ∀ w : Fin cfg0.W, (dat0 (E1 m ρ) c).arrAt w cfg0.N = E2 m ρ c (Pipeline.arrRef spec0 w)
  | ⟨0, _⟩ => (((dat0 (E1 m ρ) c).arrAt_in 0 rfl _).trans (A_eq0 (E1 m ρ) c 0)).trans (W2_of_ne m ρ c main_arg0 (by decide) (by decide)).symm
  | ⟨1, _⟩ => (((dat0 (E1 m ρ) c).arrAt_in 1 rfl _).trans (A_eq0 (E1 m ρ) c 1)).trans (W2_of_ne m ρ c main_v0 (by decide) (by decide)).symm
  | ⟨2, _⟩ => (((dat0 (E1 m ρ) c).arrAt_in 2 rfl _).trans (A_eq0 (E1 m ρ) c 2)).trans (W2_of_ne m ρ c main_arg0 (by decide) (by decide)).symm
  | ⟨3, _⟩ => (W2_tri m ρ c).symm
  | ⟨4, _⟩ => (W2_deg m ρ c).symm
theorem hrest0 (c : Dev nD) : ∀ b, b ∉ Finset.univ.image (Pipeline.arrRef spec0) → E2 m ρ c b = E1 m ρ c b :=
  fun b hb => W2_of_ne m ρ c b (fun e => hb (e ▸ (by decide : main_v2_0 ∈ Finset.univ.image (Pipeline.arrRef spec0))))
    (fun e => hb (e ▸ (by decide : main_v2_1 ∈ Finset.univ.image (Pipeline.arrRef spec0))))
theorem hF1 (c : Dev nD) : ∀ w : Fin cfg1.W, (dat1 (E3 m ρ) c).arrAt w cfg1.N = E4 m ρ c (Pipeline.arrRef spec1 w)
  | ⟨0, _⟩ => (((dat1 (E3 m ρ) c).arrAt_in 0 rfl _).trans (A_eq1 (E3 m ρ) c 0)).trans (W4_of_ne m ρ c main_arg1 (by decide) (by decide)).symm
  | ⟨1, _⟩ => (((dat1 (E3 m ρ) c).arrAt_in 1 rfl _).trans (A_eq1 (E3 m ρ) c 1)).trans (W4_of_ne m ρ c main_v1 (by decide) (by decide)).symm
  | ⟨2, _⟩ => (((dat1 (E3 m ρ) c).arrAt_in 2 rfl _).trans (A_eq1 (E3 m ρ) c 2)).trans (W4_of_ne m ρ c main_arg1 (by decide) (by decide)).symm
  | ⟨3, _⟩ => (W4_tri m ρ c).symm
  | ⟨4, _⟩ => (W4_deg m ρ c).symm
theorem hrest1 (c : Dev nD) : ∀ b, b ∉ Finset.univ.image (Pipeline.arrRef spec1) → E4 m ρ c b = E3 m ρ c b :=
  fun b hb => W4_of_ne m ρ c b (fun e => hb (e ▸ (by decide : main_v5_0 ∈ Finset.univ.image (Pipeline.arrRef spec1))))
    (fun e => hb (e ▸ (by decide : main_v5_1 ∈ Finset.univ.image (Pipeline.arrRef spec1))))

/-! ## The proof data family and what rides along -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Pallas call 0 over the thread state: entered with every unscoped buffer at its entry contents, left with them at
    its exit contents. At entry the buffers behind its arrays are dealt among its windows (the graph's by halves) and
    the other unscoped buffers bypass the call; at exit the windows' holdings, the two result rows now at their final
    contents, are joined back into whole buffers. The generator register goes into the invariant and comes back;
    nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have e : (StableHlo.held (c : Thread nD τ) (Pipeline.ucRefs τ sig) (W1 m ρ c) : sProp 𝕄)
        = iprop((Pipeline.arrBufs spec0 c (E1 m ρ c) : sProp 𝕄) ∗ Pipeline.unscopedRest spec0 c (E1 m ρ c)) :=
      (Pipeline.unscopedBufs_held (Ix := Unit) (Name := ℕ) (U := UR sig nD τ) (Lvl := ℕ) c (W1 m ρ c)).symm.trans
        (Pipeline.unscopedBufs_split₀ cfgs 0 winFacts₀0.arr_unscoped c (E1 m ρ c))
    have hd := (deal0 (E1 m ρ) c (E1 m ρ c)).1
    rw [e]
    iintro ⟨⟨⟨Hab, Hrest⟩, Hp, HO⟩, -, -⟩
    ihave Ha := hd $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have e : (StableHlo.held (c : Thread nD τ) (Pipeline.ucRefs τ sig) (W2 m ρ c) : sProp 𝕄)
        = iprop((Pipeline.arrBufs spec0 c (E2 m ρ c) : sProp 𝕄) ∗ Pipeline.unscopedRest spec0 c (E2 m ρ c)) :=
      (Pipeline.unscopedBufs_held (Ix := Unit) (Name := ℕ) (U := UR sig nD τ) (Lvl := ℕ) c (W2 m ρ c)).symm.trans
        (Pipeline.unscopedBufs_split₀ cfgs 0 winFacts₀0.arr_unscoped c (E2 m ρ c))
    have hd := (deal0 (E1 m ρ) c (E2 m ρ c)).2
    have e1 : (fun w => (pdats m ρ 0 c).arrAt w (Pipeline.pin (pcfgs (F := F)) adm 0).N) = fun w => E2 m ρ c (Pipeline.arrRef spec0 w) := funext (hF0 m ρ c)
    have e2 : (Pipeline.unscopedRest spec0 c (E1 m ρ c) : sProp 𝕄) = Pipeline.unscopedRest spec0 c (E2 m ρ c) := by
      unfold Pipeline.unscopedRest
      exact bigSep_congr fun b hb => by rw [hrest0 m ρ c b (Finset.mem_sdiff.mp hb).2]
    rw [e, e1, e2]
    iintro ⟨Ha, HO, HY, Hrest⟩
    imodintro
    isplitl [Ha Hrest]
    · isplitl [Ha]
      · iapply hd; iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at its entry contents, left with them at
    its exit contents. At entry the buffers behind its arrays are dealt among its windows (the graph's by halves) and
    the other unscoped buffers bypass the call; at exit the windows' holdings, the two result rows now at their final
    contents, are joined back into whole buffers. The generator register goes into the invariant and comes back;
    nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have e : (StableHlo.held (c : Thread nD τ) (Pipeline.ucRefs τ sig) (W3 m ρ c) : sProp 𝕄)
        = iprop((Pipeline.arrBufs spec1 c (E3 m ρ c) : sProp 𝕄) ∗ Pipeline.unscopedRest spec1 c (E3 m ρ c)) :=
      (Pipeline.unscopedBufs_held (Ix := Unit) (Name := ℕ) (U := UR sig nD τ) (Lvl := ℕ) c (W3 m ρ c)).symm.trans
        (Pipeline.unscopedBufs_split₀ cfgs 1 winFacts₀1.arr_unscoped c (E3 m ρ c))
    have hd := (deal1 (E3 m ρ) c (E3 m ρ c)).1
    rw [e]
    iintro ⟨⟨⟨Hab, Hrest⟩, Hp, HO⟩, -, -⟩
    ihave Ha := hd $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have e : (StableHlo.held (c : Thread nD τ) (Pipeline.ucRefs τ sig) (W4 m ρ c) : sProp 𝕄)
        = iprop((Pipeline.arrBufs spec1 c (E4 m ρ c) : sProp 𝕄) ∗ Pipeline.unscopedRest spec1 c (E4 m ρ c)) :=
      (Pipeline.unscopedBufs_held (Ix := Unit) (Name := ℕ) (U := UR sig nD τ) (Lvl := ℕ) c (W4 m ρ c)).symm.trans
        (Pipeline.unscopedBufs_split₀ cfgs 1 winFacts₀1.arr_unscoped c (E4 m ρ c))
    have hd := (deal1 (E3 m ρ) c (E4 m ρ c)).2
    have e1 : (fun w => (pdats m ρ 1 c).arrAt w (Pipeline.pin (pcfgs (F := F)) adm 1).N) = fun w => E4 m ρ c (Pipeline.arrRef spec1 w) := funext (hF1 m ρ c)
    have e2 : (Pipeline.unscopedRest spec1 c (E3 m ρ c) : sProp 𝕄) = Pipeline.unscopedRest spec1 c (E4 m ρ c) := by
      unfold Pipeline.unscopedRest
      exact bigSep_congr fun b hb => by rw [hrest1 m ρ c b (Finset.mem_sdiff.mp hb).2]
    rw [e, e1, e2]
    iintro ⟨Ha, HO, HY, Hrest⟩
    imodintro
    isplitl [Ha Hrest]
    · isplitl [Ha]
      · iapply hd; iexact Ha
      iexact Hrest
    isplitl [HY]; · iexact HY
    unfold Pipeline.Dat.owesAt Pipeline.owesWithin
    icases HO with ⟨%W, -, HO⟩; iexists W; iexact HO

/-! ## @main as its nine items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)) ]

set_option backward.isDefEq.respectTransparency.types false in
/-- THE RUN. At the compiled mesh, from any memory with zero counters, every weakly fair execution of @main on the
    TensorCores terminates, nothing faulting, and every final state holds every unscoped buffer of every core at the
    fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## The arguments end as launched -/

/-- No host operation writes an argument and no call may change one: the fold at an argument's buffer walks back to the
    launch memory. -/
theorem W9_main_arg0 (c : Dev nD) : W9 m ρ c (Proc.devRef .tc main_arg0) = m ((c : Thread nD τ).loc main_arg0) :=
  (StableHlo.after_of_writes_sub hostOps2_4 (W8 m ρ c) hostOps2_4_writes (by decide : main_arg0 ∉ hostOps2_4_W)).trans <|
  (StableHlo.after_of_writes_sub hostOps2_3 (W7 m ρ c) hostOps2_3_writes (by decide : main_arg0 ∉ hostOps2_3_W)).trans <|
  (StableHlo.after_of_writes_sub hostOps2_2 (W6 m ρ c) hostOps2_2_writes (by decide : main_arg0 ∉ hostOps2_2_W)).trans <|
  (StableHlo.after_of_writes_sub hostOps2_1 (W5 m ρ c) hostOps2_1_writes (by decide : main_arg0 ∉ hostOps2_1_W)).trans <|
  (StableHlo.after_of_writes_sub hostOps2 (W4 m ρ c) hostOps2_writes (by decide : main_arg0 ∉ hostOps2_W)).trans <|
  (W4_of_ne m ρ c main_arg0 (by decide) (by decide)).trans <|
  (StableHlo.after_of_writes_sub hostOps1 (W2 m ρ c) hostOps1_writes (by decide : main_arg0 ∉ hostOps1_W)).trans <|
  (W2_of_ne m ρ c main_arg0 (by decide) (by decide)).trans <|
  (StableHlo.after_of_writes_sub hostOps0 (W0 m ρ c) hostOps0_writes (by decide : main_arg0 ∉ hostOps0_W)).trans rfl
theorem W9_main_arg1 (c : Dev nD) : W9 m ρ c (Proc.devRef .tc main_arg1) = m ((c : Thread nD τ).loc main_arg1) :=
  (StableHlo.after_of_writes_sub hostOps2_4 (W8 m ρ c) hostOps2_4_writes (by decide : main_arg1 ∉ hostOps2_4_W)).trans <|
  (StableHlo.after_of_writes_sub hostOps2_3 (W7 m ρ c) hostOps2_3_writes (by decide : main_arg1 ∉ hostOps2_3_W)).trans <|
  (StableHlo.after_of_writes_sub hostOps2_2 (W6 m ρ c) hostOps2_2_writes (by decide : main_arg1 ∉ hostOps2_2_W)).trans <|
  (StableHlo.after_of_writes_sub hostOps2_1 (W5 m ρ c) hostOps2_1_writes (by decide : main_arg1 ∉ hostOps2_1_W)).trans <|
  (StableHlo.after_of_writes_sub hostOps2 (W4 m ρ c) hostOps2_writes (by decide : main_arg1 ∉ hostOps2_W)).trans <|
  (W4_of_ne m ρ c main_arg1 (by decide) (by decide)).trans <|
  (StableHlo.after_of_writes_sub hostOps1 (W2 m ρ c) hostOps1_writes (by decide : main_arg1 ∉ hostOps1_W)).trans <|
  (W2_of_ne m ρ c main_arg1 (by decide) (by decide)).trans <|
  (StableHlo.after_of_writes_sub hostOps0 (W0 m ρ c) hostOps0_writes (by decide : main_arg1 ∉ hostOps0_W)).trans rfl

/-- The frame claim at any float values: @main runs to the end, nothing faulting, and both argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W9_main_arg0 m ρ c),
     (h c _ (mem_uc main_arg1 (by decide))).trans (W9_main_arg1 m ρ c)⟩) (run_all m ρ)

end Cert.Kernel.Hand

end
-- ==== Proof.BodyIdeal.lean ====
/-
  The two pallas calls of the kernel, each taken alone: what a grid point's body is handed and what it leaves, as
  separation-logic triples, and the bookkeeping the pipeline's launch theorems ask for (which contents every window's
  staging buffer holds before and after the body at every point). Both calls run the same body text, once per graph.
-/
import proofs.«173556_j35811437314538_2_alg».proof.Proof.Gen.KernelIdeal.Launch
import proofs.«173556_j35811437314538_2_alg».proof.Proof.Gen.KernelIdeal.Skeleton
import proofs.«173556_j35811437314538_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: one graph's row blocks

The grid has 8 points; at point `t` the body is handed rows `256 t … 256 t + 255` of the graph (window 0), the whole
graph rounded to bf16 (window 1, fetched once) and columns `256 t … 256 t + 255` of the graph (window 2), and writes
entries `256 t … 256 t + 255` of the triangle row (window 3) and of the degree row (window 4). Windows 0 and 2 are
two views of ONE array, the graph itself. -/

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rRows0 : Rect S256x2048 := Rect.unit (s := S256x2048) ![0, 0] S256x2048.size inb_S256x2048_S256x2048_0_0
abbrev rAll0 : Rect S2048x2048 := Rect.unit (s := S2048x2048) ![0, 0] S2048x2048.size inb_S2048x2048_S2048x2048_0_0
abbrev rCols0 : Rect S2048x256 := Rect.unit (s := S2048x256) ![0, 0] S2048x256.size inb_S2048x256_S2048x256_0_0
abbrev rOut0 : Rect S1x256 := Rect.unit (s := S1x256) ![0, 0] S1x256.size inb_S1x256_S1x256_0_0

/-- The triangle row's staging buffer after the body: its one store, of the payload of the three loads. -/
def outTri0 (x0 : Vec F S256x2048 .f32) (x1 : Vec F S2048x2048 .bf16) (x2 : Vec F S2048x256 .f32) : Vec F S1x256 .f32 :=
  View.canon [⟨rOut0, k0_pay1 (View.ld x0 rRows0) (View.ld x1 rAll0) (View.ld x2 rCols0)⟩]
/-- The degree row's staging buffer after the body: its one store, of the payload of the row block. -/
def outDeg0 (x0 : Vec F S256x2048 .f32) : Vec F S1x256 .f32 :=
  View.canon [⟨rOut0, k0_pay2 (View.ld x0 rRows0)⟩]

/-- The one store covers the buffer. -/
theorem coverOut0 (p0 : Vec F S1x256 .f32) (y : S1x256.Idx) :
    ∃ pc ∈ ([⟨rOut0, p0⟩] : List (View.Piece (Elt F) S1x256 .f32)), y ∈ pc.1.set :=
  View.cover_of_tiled [⟨rOut0, p0⟩] S1x256.size (by rfl) y

set_option maxHeartbeats 1000000 in
/-- The body on whole staging memrefs, the inputs' at read contents and the outputs' at anything, runs to the
    continuation holding the inputs' as they were and each output's at its store's payload. -/
theorem sound_kernel0 (c : Dev nD) (E : Set ℕ) (i : grid0.Coords)
    (arg1 : Memref sig .tc .vmem S256x2048 .f32) (harg1 : arg1.IsWhole) (arg2 : Memref sig .tc .vmem S2048x2048 .bf16) (harg2 : arg2.IsWhole)
    (arg3 : Memref sig .tc .vmem S2048x256 .f32) (harg3 : arg3.IsWhole) (arg4 : Memref sig .tc .vmem S1x256 .f32) (harg4 : arg4.IsWhole)
    (arg5 : Memref sig .tc .vmem S1x256 .f32) (harg5 : arg5.IsWhole)
    (x0 : Vec F S256x2048 .f32) (x1 : Vec F S2048x2048 .bf16) (x2 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTri0 x0 x1 x2) ∗ owns (c : Thread nD τ) arg5 fullShare (outDeg0 x0)) -∗ K ⟨⟩))
      ⊢ wp frame (wpE (defs₀ (F := F)) Variants.none c none) E (cc0__tri_deg_kernel i arg1 harg1 arg2 harg2 arg3 harg3 arg4 harg4 arg5 harg5) K := by
  simp only [cc0__tri_deg_kernel_eq_skeleton]; unfold cc0__tri_deg_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut0 _)
  iexists _; isplitr
  swap; · iexact H4
  ipureintro
  exact View.read_writes_eq_canon _ _ _ (coverOut0 _)

/-! ## The proof data -/

/-- The proof data of the pipeline on core `c`: the arrays as the region finds them; after the body at point `t` each
    input's buffer at its block and each output's at its payload of the input blocks; the invariant the scoped rest and
    the generator register, untouched; nothing owed. The graph is held through two windows: window 0 holds the left
    half of its full share and window 2 the right half; the bf16 copy, a window of its own, is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outTri0 (iblk0 V c 0 t) (iblk0 V c 1 t) (iblk0 V c 2 t)
    | ⟨4, _⟩ => outDeg0 (iblk0 V c 0 t)
  Φ _ := Pipeline.ΦA spec0 c
  q w := match w with
    | ⟨0, _⟩ => fullShare.left
    | ⟨1, _⟩ => fullShare
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = outTri0 (iblk0 V c 0 t) (iblk0 V c 1 t) (iblk0 V c 2 t) := by dsimp only [dat0]
theorem after0_4 (c : Dev nD) (t : Fin cfg0.N) : (dat0 V c).after 4 t = outDeg0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Pallas call 1: one graph's row blocks

The grid has 8 points; at point `t` the body is handed rows `256 t … 256 t + 255` of the graph (window 0), the whole
graph rounded to bf16 (window 1, fetched once) and columns `256 t … 256 t + 255` of the graph (window 2), and writes
entries `256 t … 256 t + 255` of the triangle row (window 3) and of the degree row (window 4). Windows 0 and 2 are
two views of ONE array, the graph itself. -/

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev rRows1 : Rect S256x2048 := Rect.unit (s := S256x2048) ![0, 0] S256x2048.size inb_S256x2048_S256x2048_0_0
abbrev rAll1 : Rect S2048x2048 := Rect.unit (s := S2048x2048) ![0, 0] S2048x2048.size inb_S2048x2048_S2048x2048_0_0
abbrev rCols1 : Rect S2048x256 := Rect.unit (s := S2048x256) ![0, 0] S2048x256.size inb_S2048x256_S2048x256_0_0
abbrev rOut1 : Rect S1x256 := Rect.unit (s := S1x256) ![0, 0] S1x256.size inb_S1x256_S1x256_0_0

/-- The triangle row's staging buffer after the body: its one store, of the payload of the three loads. -/
def outTri1 (x0 : Vec F S256x2048 .f32) (x1 : Vec F S2048x2048 .bf16) (x2 : Vec F S2048x256 .f32) : Vec F S1x256 .f32 :=
  View.canon [⟨rOut1, k1_pay1 (View.ld x0 rRows1) (View.ld x1 rAll1) (View.ld x2 rCols1)⟩]
/-- The degree row's staging buffer after the body: its one store, of the payload of the row block. -/
def outDeg1 (x0 : Vec F S256x2048 .f32) : Vec F S1x256 .f32 :=
  View.canon [⟨rOut1, k1_pay2 (View.ld x0 rRows1)⟩]

/-- The one store covers the buffer. -/
theorem coverOut1 (p0 : Vec F S1x256 .f32) (y : S1x256.Idx) :
    ∃ pc ∈ ([⟨rOut1, p0⟩] : List (View.Piece (Elt F) S1x256 .f32)), y ∈ pc.1.set :=
  View.cover_of_tiled [⟨rOut1, p0⟩] S1x256.size (by rfl) y

set_option maxHeartbeats 1000000 in
/-- The body on whole staging memrefs, the inputs' at read contents and the outputs' at anything, runs to the
    continuation holding the inputs' as they were and each output's at its store's payload. -/
theorem sound_kernel1 (c : Dev nD) (E : Set ℕ) (i : grid1.Coords)
    (arg1 : Memref sig .tc .vmem S256x2048 .f32) (harg1 : arg1.IsWhole) (arg2 : Memref sig .tc .vmem S2048x2048 .bf16) (harg2 : arg2.IsWhole)
    (arg3 : Memref sig .tc .vmem S2048x256 .f32) (harg3 : arg3.IsWhole) (arg4 : Memref sig .tc .vmem S1x256 .f32) (harg4 : arg4.IsWhole)
    (arg5 : Memref sig .tc .vmem S1x256 .f32) (harg5 : arg5.IsWhole)
    (x0 : Vec F S256x2048 .f32) (x1 : Vec F S2048x2048 .bf16) (x2 : Vec F S2048x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTri1 x0 x1 x2) ∗ owns (c : Thread nD τ) arg5 fullShare (outDeg1 x0)) -∗ K ⟨⟩))
      ⊢ wp frame (wpE (defs₀ (F := F)) Variants.none c none) E (cc1__tri_deg_kernel i arg1 harg1 arg2 harg2 arg3 harg3 arg4 harg4 arg5 harg5) K := by
  simp only [cc1__tri_deg_kernel_eq_skeleton]; unfold cc1__tri_deg_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut1 _)
  iexists _; isplitr
  swap; · iexact H4
  ipureintro
  exact View.read_writes_eq_canon _ _ _ (coverOut1 _)

/-! ## The proof data -/

/-- The proof data of the pipeline on core `c`: the arrays as the region finds them; after the body at point `t` each
    input's buffer at its block and each output's at its payload of the input blocks; the invariant the scoped rest and
    the generator register, untouched; nothing owed. The graph is held through two windows: window 0 holds the left
    half of its full share and window 2 the right half; the bf16 copy, a window of its own, is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTri1 (iblk1 V c 0 t) (iblk1 V c 1 t) (iblk1 V c 2 t)
    | ⟨4, _⟩ => outDeg1 (iblk1 V c 0 t)
  Φ _ := Pipeline.ΦA spec1 c
  q w := match w with
    | ⟨0, _⟩ => fullShare.left
    | ⟨1, _⟩ => fullShare
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outTri1 (iblk1 V c 0 t) (iblk1 V c 1 t) (iblk1 V c 2 t) := by dsimp only [dat1]
theorem after1_4 (c : Dev nD) (t : Fin cfg1.N) : (dat1 V c).after 4 t = outDeg1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.RunIdeal.lean ====
/-
  The whole run of the kernel's program: two casts to bf16, the first pallas call, two reshapes, the second pallas
  call, and the scalar tail, as nine items run one after the other on each TensorCore. Each call reads its graph
  through two windows on one buffer, so the buffer's full share is dealt between them at the call's entry and joined
  again at its exit. The run ends with every unscoped buffer at a named fold of the launch memory: the arguments'
  buffers untouched, the calls' result rows at what their write-backs leave, everything else at the host
  operations' results.
-/
import proofs.«173556_j35811437314538_2_alg».proof.Proof.BodyIdeal
import proofs.«173556_j35811437314538_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pallas call 0: the graph's one buffer dealt between its two windows

The buffers behind the call's five windows are four: the graph (read through windows 0 and 2), its bf16 copy and the
two result rows. Held whole, the graph's buffer is the two halves of its full share, one per window; the other three
are their windows' holdings as they stand. -/

section Deal0
variable (V : (c : Dev nD) → (b : Ref sig .tc) → Buf (Elt F) ((c : Thread nD τ).loc b))

/-- The windows' holdings, each array a whole buffer. -/
theorem arrays0_eq (c : Dev nD) (Fs : (w : Fin cfg0.W) → Buf (Elt F) ((cfg0.win w).arr.view.loc (c : Thread nD τ))) :
    ((dat0 V c).arrays Fs : sProp 𝕄)
      = bigSep Finset.univ fun w : Fin 5 => (((c : Thread nD τ).loc (Pipeline.arrRef spec0 w)) ↦{(dat0 V c).share w} Fs w : sProp 𝕄) := by
  unfold Dat.arrays
  exact bigSep_congr fun w _ => by rw [(arr_whole0 w).set_eq_univ]

/-- The deal, in both directions, at any contents. -/
theorem deal0 (c : Dev nD) (W : (b : Ref sig .tc) → Buf (Elt F) ((c : Thread nD τ).loc b)) :
    ((Pipeline.arrBufs spec0 c W : sProp 𝕄) ⊢ (dat0 V c).arrays (fun w => W (Pipeline.arrRef spec0 w)))
    ∧ (((dat0 V c).arrays (fun w => W (Pipeline.arrRef spec0 w)) : sProp 𝕄) ⊢ Pipeline.arrBufs spec0 c W) := by
  have e1 : (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v2_0) ↦{fullShare} W main_v2_0) ∗ (((c : Thread nD τ).loc main_v2_1) ↦{fullShare} W main_v2_1)) := by
    unfold Pipeline.arrBufs
    rw [bigSep_eq_bigSepL_of_eq [main_arg0, main_v0, main_v2_0, main_v2_1] (by decide) (by decide)]
    rfl
  have e2 : ((dat0 V c).arrays (fun w => W (Pipeline.arrRef spec0 w)) : sProp 𝕄)
      = iprop((((c : Thread nD τ).loc main_arg0) ↦{fullShare.left} W main_arg0) ∗ (((c : Thread nD τ).loc main_v0) ↦{fullShare} W main_v0)
          ∗ (((c : Thread nD τ).loc main_arg0) ↦{fullShare.right} W main_arg0)
          ∗ (((c : Thread nD τ).loc main_v2_0) ↦{fullShare} W main_v2_0) ∗ (((c : Thread nD τ).loc main_v2_1) ↦{fullShare} W main_v2_1)) := by
    rw [arrays0_eq, bigSep_W0]
    rfl
  rw [e1, e2]
  have hs := pointsTo_share (Ix := Unit) (Name := ℕ) (U := UR sig nD τ) (Lvl := ℕ) (ℓ := (c : Thread nD τ).loc main_arg0) (I := Finset.univ) (f := W main_arg0)
    (PosShare.mem_left_op_right fullShare)
  constructor
  · iintro ⟨Ha, Hb, Hc, Hd⟩
    ihave H := hs.1 $$ Ha
    icases H with ⟨Hl, Hr⟩
    isplitl [Hl]; · iexact Hl
    isplitl [Hb]; · iexact Hb
    isplitl [Hr]; · iexact Hr
    isplitl [Hc]; · iexact Hc
    iexact Hd
  · iintro ⟨Hl, Hb, Hr, Hc, Hd⟩
    isplitl [Hl Hr]
    · iapply hs.2
      isplitl [Hl]; · iexact Hl
      iexact Hr
    isplitl [Hb]; · iexact Hb
    isplitl [Hc]; · iexact Hc
    iexact Hd

end Deal0

/-! ## Pallas call 1: the graph's one buffer dealt between its two windows

The buffers behind the call's five windows are four: the graph (read through windows 0 and 2), its bf16 copy and the
two result rows. Held whole, the graph's buffer is the two halves of its full share, one per window; the other three
are their windows' holdings as they stand. -/

section Deal1
variable (V : (c : Dev nD) → (b : Ref sig .tc) → Buf (Elt F) ((c : Thread nD τ).loc b))

/-- The windows' holdings, each array a whole buffer. -/
theorem arrays1_eq (c : Dev nD) (Fs : (w : Fin cfg1.W) → Buf (Elt F) ((cfg1.win w).arr.view.loc (c : Thread nD τ))) :
    ((dat1 V c).arrays Fs : sProp 𝕄)
      = bigSep Finset.univ fun w : Fin 5 => (((c : Thread nD τ).loc (Pipeline.arrRef spec1 w)) ↦{(dat1 V c).share w} Fs w : sProp 𝕄) := by
  unfold Dat.arrays
  exact bigSep_congr fun w _ => by rw [(arr_whole1 w).set_eq_univ]

/-- The deal, in both directions, at any contents. -/
theorem deal1 (c : Dev nD) (W : (b : Ref sig .tc) → Buf (Elt F) ((c : Thread nD τ).loc b)) :
    ((Pipeline.arrBufs spec1 c W : sProp 𝕄) ⊢ (dat1 V c).arrays (fun w => W (Pipeline.arrRef spec1 w)))
    ∧ (((dat1 V c).arrays (fun w => W (Pipeline.arrRef spec1 w)) : sProp 𝕄) ⊢ Pipeline.arrBufs spec1 c W) := by
  have e1 : (Pipeline.arrBufs spec1 c W : sProp 𝕄)
      = iprop((((c : Thread nD τ).loc main_arg1) ↦{fullShare} W main_arg1) ∗ (((c : Thread nD τ).loc main_v1) ↦{fullShare} W main_v1)
          ∗ (((c : Thread nD τ).loc main_v5_0) ↦{fullShare} W main_v5_0) ∗ (((c : Thread nD τ).loc main_v5_1) ↦{fullShare} W main_v5_1)) := by
    unfold Pipeline.arrBufs
    rw [bigSep_eq_bigSepL_of_eq [main_arg1, main_v1, main_v5_0, main_v5_1] (by decide) (by decide)]
    rfl
  have e2 : ((dat1 V c).arrays (fun w => W (Pipeline.arrRef spec1 w)) : sProp 𝕄)
      = iprop((((c : Thread nD τ).loc main_arg1) ↦{fullShare.left} W main_arg1) ∗ (((c : Thread nD τ).loc main_v1) ↦{fullShare} W main_v1)
          ∗ (((c : Thread nD τ).loc main_arg1) ↦{fullShare.right} W main_arg1)
          ∗ (((c : Thread nD τ).loc main_v5_0) ↦{fullShare} W main_v5_0) ∗ (((c : Thread nD τ).loc main_v5_1) ↦{fullShare} W main_v5_1)) := by
    rw [arrays1_eq, bigSep_W1]
    rfl
  rw [e1, e2]
  have hs := pointsTo_share (Ix := Unit) (Name := ℕ) (U := UR sig nD τ) (Lvl := ℕ) (ℓ := (c : Thread nD τ).loc main_arg1) (I := Finset.univ) (f := W main_arg1)
    (PosShare.mem_left_op_right fullShare)
  constructor
  · iintro ⟨Ha, Hb, Hc, Hd⟩
    ihave H := hs.1 $$ Ha
    icases H with ⟨Hl, Hr⟩
    isplitl [Hl]; · iexact Hl
    isplitl [Hb]; · iexact Hb
    isplitl [Hr]; · iexact Hr
    isplitl [Hc]; · iexact Hc
    iexact Hd
  · iintro ⟨Hl, Hb, Hr, Hc, Hd⟩
    isplitl [Hl Hr]
    · iapply hs.2
      isplitl [Hl]; · iexact Hl
      iexact Hr
    isplitl [Hb]; · iexact Hb
    isplitl [Hc]; · iexact Hc
    iexact Hd

end Deal1

/-! # The run of @main, item by item

## The TensorCore's buffer contents between items: a fold from the launch memory -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two casts to bf16 (the first call's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- The first graph's triangle row and degree row as the first call leaves them: its write-backs folded. -/
def tri0 (c : Dev nD) : Buf (Elt F) ((c : Thread nD τ).loc main_v2_0) := (dat0 (E1 m ρ) c).arrAt 3 cfg0.N
def deg0 (c : Dev nD) : Buf (Elt F) ((c : Thread nD τ).loc main_v2_1) := (dat0 (E1 m ρ) c).arrAt 4 cfg0.N
/-- At the first call's exit: its two result rows, every other buffer as entered. -/
def W2 (c : Dev nD) : Valuation τ sig (Elt F) :=
  Function.update (Function.update (W1 m ρ c) (Proc.devRef .tc main_v2_0) (tri0 m ρ c)) (Proc.devRef .tc main_v2_1) (deg0 m ρ c)
theorem W2_tri (c : Dev nD) : W2 m ρ c (Proc.devRef .tc main_v2_0) = tri0 m ρ c := by
  unfold W2
  rw [Function.update_of_ne (StableHlo.devRef_ne_of_ne (by decide) : (Proc.devRef .tc main_v2_0 : DevRef τ sig) ≠ Proc.devRef .tc main_v2_1), Function.update_self]
theorem W2_deg (c : Dev nD) : W2 m ρ c (Proc.devRef .tc main_v2_1) = deg0 m ρ c := by
  unfold W2; rw [Function.update_self]
theorem W2_of_ne (c : Dev nD) (b : Ref sig .tc) (h0 : b ≠ main_v2_0) (h1 : b ≠ main_v2_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
abbrev E2 : (c : Dev nD) → (b : Ref sig .tc) → Buf (Elt F) ((c : Thread nD τ).loc b) := fun c b => W2 m ρ c b
/-- After the two result rows are reshaped to vectors (the second call's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- The second graph's triangle row and degree row as the second call leaves them. -/
def tri1 (c : Dev nD) : Buf (Elt F) ((c : Thread nD τ).loc main_v5_0) := (dat1 (E3 m ρ) c).arrAt 3 cfg1.N
def deg1 (c : Dev nD) : Buf (Elt F) ((c : Thread nD τ).loc main_v5_1) := (dat1 (E3 m ρ) c).arrAt 4 cfg1.N
def W4 (c : Dev nD) : Valuation τ sig (Elt F) :=
  Function.update (Function.update (W3 m ρ c) (Proc.devRef .tc main_v5_0) (tri1 m ρ c)) (Proc.devRef .tc main_v5_1) (deg1 m ρ c)
theorem W4_tri (c : Dev nD) : W4 m ρ c (Proc.devRef .tc main_v5_0) = tri1 m ρ c := by
  unfold W4
  rw [Function.update_of_ne (StableHlo.devRef_ne_of_ne (by decide) : (Proc.devRef .tc main_v5_0 : DevRef τ sig) ≠ Proc.devRef .tc main_v5_1), Function.update_self]
theorem W4_deg (c : Dev nD) : W4 m ρ c (Proc.devRef .tc main_v5_1) = deg1 m ρ c := by
  unfold W4; rw [Function.update_self]
theorem W4_of_ne (c : Dev nD) (b : Ref sig .tc) (h0 : b ≠ main_v5_0) (h1 : b ≠ main_v5_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
abbrev E4 : (c : Dev nD) → (b : Ref sig .tc) → Buf (Elt F) ((c : Thread nD τ).loc b) := fun c b => W4 m ρ c b
/-- After each of the five stretches of host operations that follow the second call. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)

/-- At a call's exit each of its arrays holds what the pipeline leaves — an input as entered, a result row its
    write-backs — and every other buffer what it held at entry. -/
theorem hF0 (c : Dev nD) : ∀ w : Fin cfg0.W, (dat0 (E1 m ρ) c).arrAt w cfg0.N = E2 m ρ c (Pipeline.arrRef spec0 w)
  | ⟨0, _⟩ => (((dat0 (E1 m ρ) c).arrAt_in 0 rfl _).trans (A_eq0 (E1 m ρ) c 0)).trans (W2_of_ne m ρ c main_arg0 (by decide) (by decide)).symm
  | ⟨1, _⟩ => (((dat0 (E1 m ρ) c).arrAt_in 1 rfl _).trans (A_eq0 (E1 m ρ) c 1)).trans (W2_of_ne m ρ c main_v0 (by decide) (by decide)).symm
  | ⟨2, _⟩ => (((dat0 (E1 m ρ) c).arrAt_in 2 rfl _).trans (A_eq0 (E1 m ρ) c 2)).trans (W2_of_ne m ρ c main_arg0 (by decide) (by decide)).symm
  | ⟨3, _⟩ => (W2_tri m ρ c).symm
  | ⟨4, _⟩ => (W2_deg m ρ c).symm
theorem hrest0 (c : Dev nD) : ∀ b, b ∉ Finset.univ.image (Pipeline.arrRef spec0) → E2 m ρ c b = E1 m ρ c b :=
  fun b hb => W2_of_ne m ρ c b (fun e => hb (e ▸ (by decide : main_v2_0 ∈ Finset.univ.image (Pipeline.arrRef spec0))))
    (fun e => hb (e ▸ (by decide : main_v2_1 ∈ Finset.univ.image (Pipeline.arrRef spec0))))
theorem hF1 (c : Dev nD) : ∀ w : Fin cfg1.W, (dat1 (E3 m ρ) c).arrAt w cfg1.N = E4 m ρ c (Pipeline.arrRef spec1 w)
  | ⟨0, _⟩ => (((dat1 (E3 m ρ) c).arrAt_in 0 rfl _).trans (A_eq1 (E3 m ρ) c 0)).trans (W4_of_ne m ρ c main_arg1 (by decide) (by decide)).symm
  | ⟨1, _⟩ => (((dat1 (E3 m ρ) c).arrAt_in 1 rfl _).trans (A_eq1 (E3 m ρ) c 1)).trans (W4_of_ne m ρ c main_v1 (by decide) (by decide)).symm
  | ⟨2, _⟩ => (((dat1 (E3 m ρ) c).arrAt_in 2 rfl _).trans (A_eq1 (E3 m ρ) c 2)).trans (W4_of_ne m ρ c main_arg1 (by decide) (by decide)).symm
  | ⟨3, _⟩ => (W4_tri m ρ c).symm
  | ⟨4, _⟩ => (W4_deg m ρ c).symm
theorem hrest1 (c : Dev nD) : ∀ b, b ∉ Finset.univ.image (Pipeline.arrRef spec1) → E4 m ρ c b = E3 m ρ c b :=
  fun b hb => W4_of_ne m ρ c b (fun e => hb (e ▸ (by decide : main_v5_0 ∈ Finset.univ.image (Pipeline.arrRef spec1))))
    (fun e => hb (e ▸ (by decide : main_v5_1 ∈ Finset.univ.image (Pipeline.arrRef spec1))))

/-! ## The proof data family and what rides along -/

/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Pallas call 0 over the thread state: entered with every unscoped buffer at its entry contents, left with them at
    its exit contents. At entry the buffers behind its arrays are dealt among its windows (the graph's by halves) and
    the other unscoped buffers bypass the call; at exit the windows' holdings, the two result rows now at their final
    contents, are joined back into whole buffers. The generator register goes into the invariant and comes back;
    nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have e : (StableHlo.held (c : Thread nD τ) (Pipeline.ucRefs τ sig) (W1 m ρ c) : sProp 𝕄)
        = iprop((Pipeline.arrBufs spec0 c (E1 m ρ c) : sProp 𝕄) ∗ Pipeline.unscopedRest spec0 c (E1 m ρ c)) :=
      (Pipeline.unscopedBufs_held (Ix := Unit) (Name := ℕ) (U := UR sig nD τ) (Lvl := ℕ) c (W1 m ρ c)).symm.trans
        (Pipeline.unscopedBufs_split₀ cfgs 0 winFacts₀0.arr_unscoped c (E1 m ρ c))
    have hd := (deal0 (E1 m ρ) c (E1 m ρ c)).1
    rw [e]
    iintro ⟨⟨⟨Hab, Hrest⟩, Hp, HO⟩, -, -⟩
    ihave Ha := hd $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have e : (StableHlo.held (c : Thread nD τ) (Pipeline.ucRefs τ sig) (W2 m ρ c) : sProp 𝕄)
        = iprop((Pipeline.arrBufs spec0 c (E2 m ρ c) : sProp 𝕄) ∗ Pipeline.unscopedRest spec0 c (E2 m ρ c)) :=
      (Pipeline.unscopedBufs_held (Ix := Unit) (Name := ℕ) (U := UR sig nD τ) (Lvl := ℕ) c (W2 m ρ c)).symm.trans
        (Pipeline.unscopedBufs_split₀ cfgs 0 winFacts₀0.arr_unscoped c (E2 m ρ c))
    have hd := (deal0 (E1 m ρ) c (E2 m ρ c)).2
    have e1 : (fun w => (pdats m ρ 0 c).arrAt w (Pipeline.pin (pcfgs (F := F)) adm 0).N) = fun w => E2 m ρ c (Pipeline.arrRef spec0 w) := funext (hF0 m ρ c)
    have e2 : (Pipeline.unscopedRest spec0 c (E1 m ρ c) : sProp 𝕄) = Pipeline.unscopedRest spec0 c (E2 m ρ c) := by
      unfold Pipeline.unscopedRest
      exact bigSep_congr fun b hb => by rw [hrest0 m ρ c b (Finset.mem_sdiff.mp hb).2]
    rw [e, e1, e2]
    iintro ⟨Ha, HO, HY, Hrest⟩
    imodintro
    isplitl [Ha Hrest]
    · isplitl [Ha]
      · iapply hd; iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at its entry contents, left with them at
    its exit contents. At entry the buffers behind its arrays are dealt among its windows (the graph's by halves) and
    the other unscoped buffers bypass the call; at exit the windows' holdings, the two result rows now at their final
    contents, are joined back into whole buffers. The generator register goes into the invariant and comes back;
    nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have e : (StableHlo.held (c : Thread nD τ) (Pipeline.ucRefs τ sig) (W3 m ρ c) : sProp 𝕄)
        = iprop((Pipeline.arrBufs spec1 c (E3 m ρ c) : sProp 𝕄) ∗ Pipeline.unscopedRest spec1 c (E3 m ρ c)) :=
      (Pipeline.unscopedBufs_held (Ix := Unit) (Name := ℕ) (U := UR sig nD τ) (Lvl := ℕ) c (W3 m ρ c)).symm.trans
        (Pipeline.unscopedBufs_split₀ cfgs 1 winFacts₀1.arr_unscoped c (E3 m ρ c))
    have hd := (deal1 (E3 m ρ) c (E3 m ρ c)).1
    rw [e]
    iintro ⟨⟨⟨Hab, Hrest⟩, Hp, HO⟩, -, -⟩
    ihave Ha := hd $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have e : (StableHlo.held (c : Thread nD τ) (Pipeline.ucRefs τ sig) (W4 m ρ c) : sProp 𝕄)
        = iprop((Pipeline.arrBufs spec1 c (E4 m ρ c) : sProp 𝕄) ∗ Pipeline.unscopedRest spec1 c (E4 m ρ c)) :=
      (Pipeline.unscopedBufs_held (Ix := Unit) (Name := ℕ) (U := UR sig nD τ) (Lvl := ℕ) c (W4 m ρ c)).symm.trans
        (Pipeline.unscopedBufs_split₀ cfgs 1 winFacts₀1.arr_unscoped c (E4 m ρ c))
    have hd := (deal1 (E3 m ρ) c (E4 m ρ c)).2
    have e1 : (fun w => (pdats m ρ 1 c).arrAt w (Pipeline.pin (pcfgs (F := F)) adm 1).N) = fun w => E4 m ρ c (Pipeline.arrRef spec1 w) := funext (hF1 m ρ c)
    have e2 : (Pipeline.unscopedRest spec1 c (E3 m ρ c) : sProp 𝕄) = Pipeline.unscopedRest spec1 c (E4 m ρ c) := by
      unfold Pipeline.unscopedRest
      exact bigSep_congr fun b hb => by rw [hrest1 m ρ c b (Finset.mem_sdiff.mp hb).2]
    rw [e, e1, e2]
    iintro ⟨Ha, HO, HY, Hrest⟩
    imodintro
    isplitl [Ha Hrest]
    · isplitl [Ha]
      · iapply hd; iexact Ha
      iexact Hrest
    isplitl [HY]; · iexact HY
    unfold Pipeline.Dat.owesAt Pipeline.owesWithin
    icases HO with ⟨%W, -, HO⟩; iexists W; iexact HO

/-! ## @main as its nine items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)) ]

set_option backward.isDefEq.respectTransparency.types false in
/-- THE RUN. At the compiled mesh, from any memory with zero counters, every weakly fair execution of @main on the
    TensorCores terminates, nothing faulting, and every final state holds every unscoped buffer of every core at the
    fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-! ## The arguments end as launched -/

/-- No host operation writes an argument and no call may change one: the fold at an argument's buffer walks back to the
    launch memory. -/
theorem W9_main_arg0 (c : Dev nD) : W9 m ρ c (Proc.devRef .tc main_arg0) = m ((c : Thread nD τ).loc main_arg0) :=
  (StableHlo.after_of_writes_sub hostOps2_4 (W8 m ρ c) hostOps2_4_writes (by decide : main_arg0 ∉ hostOps2_4_W)).trans <|
  (StableHlo.after_of_writes_sub hostOps2_3 (W7 m ρ c) hostOps2_3_writes (by decide : main_arg0 ∉ hostOps2_3_W)).trans <|
  (StableHlo.after_of_writes_sub hostOps2_2 (W6 m ρ c) hostOps2_2_writes (by decide : main_arg0 ∉ hostOps2_2_W)).trans <|
  (StableHlo.after_of_writes_sub hostOps2_1 (W5 m ρ c) hostOps2_1_writes (by decide : main_arg0 ∉ hostOps2_1_W)).trans <|
  (StableHlo.after_of_writes_sub hostOps2 (W4 m ρ c) hostOps2_writes (by decide : main_arg0 ∉ hostOps2_W)).trans <|
  (W4_of_ne m ρ c main_arg0 (by decide) (by decide)).trans <|
  (StableHlo.after_of_writes_sub hostOps1 (W2 m ρ c) hostOps1_writes (by decide : main_arg0 ∉ hostOps1_W)).trans <|
  (W2_of_ne m ρ c main_arg0 (by decide) (by decide)).trans <|
  (StableHlo.after_of_writes_sub hostOps0 (W0 m ρ c) hostOps0_writes (by decide : main_arg0 ∉ hostOps0_W)).trans rfl
theorem W9_main_arg1 (c : Dev nD) : W9 m ρ c (Proc.devRef .tc main_arg1) = m ((c : Thread nD τ).loc main_arg1) :=
  (StableHlo.after_of_writes_sub hostOps2_4 (W8 m ρ c) hostOps2_4_writes (by decide : main_arg1 ∉ hostOps2_4_W)).trans <|
  (StableHlo.after_of_writes_sub hostOps2_3 (W7 m ρ c) hostOps2_3_writes (by decide : main_arg1 ∉ hostOps2_3_W)).trans <|
  (StableHlo.after_of_writes_sub hostOps2_2 (W6 m ρ c) hostOps2_2_writes (by decide : main_arg1 ∉ hostOps2_2_W)).trans <|
  (StableHlo.after_of_writes_sub hostOps2_1 (W5 m ρ c) hostOps2_1_writes (by decide : main_arg1 ∉ hostOps2_1_W)).trans <|
  (StableHlo.after_of_writes_sub hostOps2 (W4 m ρ c) hostOps2_writes (by decide : main_arg1 ∉ hostOps2_W)).trans <|
  (W4_of_ne m ρ c main_arg1 (by decide) (by decide)).trans <|
  (StableHlo.after_of_writes_sub hostOps1 (W2 m ρ c) hostOps1_writes (by decide : main_arg1 ∉ hostOps1_W)).trans <|
  (W2_of_ne m ρ c main_arg1 (by decide) (by decide)).trans <|
  (StableHlo.after_of_writes_sub hostOps0 (W0 m ρ c) hostOps0_writes (by decide : main_arg1 ∉ hostOps0_W)).trans rfl

/-- The frame claim at any float values: @main runs to the end, nothing faulting, and both argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W9_main_arg0 m ρ c),
     (h c _ (mem_uc main_arg1 (by decide))).trans (W9_main_arg1 m ρ c)⟩) (run_all m ρ)

end Cert.KernelIdeal.Hand

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.LibRowReduce.lean ====
/-
  Reductions of a matrix along its rows, read at a row, over the extended reals.

  Reducing an [n, m] matrix over its second axis leaves a vector of length n. Its entry p is the row's fold: for a
  maximum, the fold of max from the initial value over the m entries of row p; for a sum, the initial value plus the sum
  of the m entries of row p. This holds for the device's reductions and for the host's alike, the operand index over
  row p with second coordinate k being (p, k).
-/
import Idealize.ShloMosaic.Lib.ValueIdx
import Idealize.ShloMosaic.PureOps.Ideal.Laws

namespace Cert.LibRowReduce

open Idealize.ShloMosaic Idealize.ShloMosaic.ValueIdx

variable {n m : ℕ}

/-- Over row `p`, the operand index with second coordinate `k` is `(p, k)`. -/
theorem lift_row (h : (⟨2, ![n, m]⟩ : Shape).Reduces [(1 : Fin 2)] ⟨1, ![n]⟩) (p : Fin n) (k : Fin m) :
    h.lift (ix1 p) k = ix2 p k := by
  funext c
  apply Fin.ext
  show h.liftVal (ix1 p) k.val c = (ix2 p k c).val
  unfold Shape.Reduces.liftVal
  match c with
  | ⟨0, _⟩ => rw [dif_neg (by simp), dif_pos (by simp)]
  | ⟨1, _⟩ => rw [dif_pos (by simp)]

/-- The device's row maximum at row `p`: the fold of max from the accumulator's value over the row. -/
theorem multiReduction_max_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.maximumf.neutral φ hφ) (p : Fin n) :
    multiReduction .maximumf [(1 : Fin 2)] ⟨1, ![n]⟩ src acc h hφ hacc (ix1 p)
      = (Finset.univ : Finset (Fin m)).fold max (Ideal.ofBits φ acc) (fun k => src (ix2 p k)) := by
  refine (Ideal.multiReduction_maximumf_single src acc h hφ hacc (ix1 p)).trans ?_
  show (Finset.univ : Finset (Fin m)).fold max (Ideal.ofBits φ acc) (src ∘ h.lift (ix1 p)) = _
  exact congrArg (fun g => (Finset.univ : Finset (Fin m)).fold max (Ideal.ofBits φ acc) g)
    (funext fun k => congrArg src (lift_row h p k))

/-- The device's row sum at row `p`: the sum of the row. -/
theorem multiReduction_add_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.add.neutral φ hφ) (p : Fin n) :
    multiReduction .add [(1 : Fin 2)] ⟨1, ![n]⟩ src acc h hφ hacc (ix1 p) = ∑ k : Fin m, src (ix2 p k) := by
  refine (Ideal.multiReduction_add_single src acc h hφ hacc (ix1 p)).trans ?_
  show ∑ k : Fin m, src (h.lift (ix1 p) k) = _
  exact Finset.sum_congr rfl fun k _ => congrArg src (lift_row h p k)

/-- The host's row reduction by a commutative, associative operation at row `p`: the fold from the initial value. -/
theorem hostReduce_row {α : Type} {u : Shape} (f : α → α → α) [Std.Commutative f] [Std.Associative f]
    (x : (⟨2, ![n, m]⟩ : Shape).Idx → α) (init : u.Idx → α)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduce f x init h' hu (ix1 p)
      = (Finset.univ : Finset (Fin m)).fold f (init (Shape.Idx.first hu)) (fun k => x (ix2 p k)) := by
  refine (Host.reduce_eq_fold_single f x init h' h hu (ix1 p)).trans ?_
  show (Finset.univ : Finset (Fin m)).fold f (init (Shape.Idx.first hu)) (x ∘ h.lift (ix1 p)) = _
  exact congrArg (fun g => (Finset.univ : Finset (Fin m)).fold f (init (Shape.Idx.first hu)) g)
    (funext fun k => congrArg x (lift_row h p k))

/-- The host's row sum at row `p`: the initial value plus the sum of the row. -/
theorem hostReduceAdd_row {φ : FTy} {u : Shape} (x : FVec Ideal ⟨2, ![n, m]⟩ φ) (init : u.Idx → Ideal φ)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduceAdd x init h' hu (ix1 p) = init (Shape.Idx.first hu) + ∑ k : Fin m, x (ix2 p k) := by
  refine (Ideal.hostReduceAdd_single h' h x (init (Shape.Idx.first hu)) (ix1 p)).trans ?_
  show init (Shape.Idx.first hu) + ∑ k : Fin m, x (h.lift (ix1 p) k) = _
  exact congrArg (fun s => init (Shape.Idx.first hu) + s) (Finset.sum_congr rfl fun k _ => congrArg x (lift_row h p k))

end Cert.LibRowReduce
-- ==== Proof.Payload.lean ====
/-
  The body's two stored values at an index, at the ideal values.

  One step of the kernel holds a block of 256 rows of the array (as a 256 × 2048 block `x0`), the whole array in its
  sixteen-bit copy (`x1`, 2048 × 2048; a change of format is the identity on extended reals), and the 256 columns with
  the same numbers as those rows (a 2048 × 256 block `x2`). It stores two rows of 256 values:
    • at `q`, the row `q` of the product `x0 · x1` against the column `q` of `x2`:
        Σ_j (Σ_k x0[q,k] · x1[k,j]) · x2[j,q]
      (the product into the zero accumulator is the plain sum over the contracted coordinate; the column block is
      transposed, so its entry (q, j) is `x2[j,q]`; the lane sum over the second axis is the sum over `j`);
    • at `q`, the sum of row `q` of `x0`:  Σ_k x0[q,k].
  Each is a vector of 256 values re-shaped to one row of 256, which reads at (0, q) the vector at q.
  The second region's body is the same term under another name.
-/
import proofs.«173556_j35811437314538_2_alg».proof.Proof.Gen.KernelIdeal.Skeleton
import proofs.«173556_j35811437314538_2_alg».proof.Proof.LibPlainDot
import proofs.«173556_j35811437314538_2_alg».proof.Proof.LibRowReduce
import Idealize.ShloMosaic.Lib.ValueLayout

noncomputable section

open scoped BigOperators

namespace Cert.TriDeg

open Idealize.ShloMosaic Idealize.ShloMosaic.ValueIdx Cert.KernelIdeal Cert.KernelIdeal.Facts₀

/-- The kernel's product is the plain one: rows by contraction times contraction by columns. -/
theorem dot_eq_plain [Cert.KernelIdeal.Facts] :
    dot_S256x2048_S2048x2048_S256x2048_1_0_0_1_n_n = DotDims.plain 256 2048 2048 := rfl

/-- A row of 256 sums: the sum of row `q` of a 256 × 2048 block, re-shaped to one row, read at (0, q). -/
theorem rowSum_apply [Cert.KernelIdeal.Facts] (x : FVec Ideal S256x2048 .f32) (q : Fin 256) :
    shapeCast S1x256 (multiReduction (F := Ideal) .add [1] S256 x 0x00000000#32 reduces_S256x2048_S256 (.inl rfl) rfl)
        shapeCasts_S256_S1x256 (ix2 (0 : Fin 1) q)
      = ∑ k : Fin 2048, x (ix2 q k) :=
  (shapeCast_a_1a_apply _ shapeCasts_S256_S1x256 0 q).trans
    (Cert.LibRowReduce.multiReduction_add_row x _ reduces_S256x2048_S256 (.inl rfl) rfl q)

/-- The product of the row block with the whole array, at (q, j): Σ_k x0[q,k] · x1[k,j]. -/
theorem prod_apply [Cert.KernelIdeal.Facts] (x0 : FVec Ideal S256x2048 .f32) (x1 : FVec Ideal S2048x2048 .bf16)
    (q : Fin 256) (j : Fin 2048) :
    matmul (F := Ideal) dot_S256x2048_S2048x2048_S256x2048_1_0_0_1_n_n none (truncf .bf16 x0 bitsLt_bf16_f32)
        (shapeCast S2048x2048 x1 shapeCasts_S2048x2048_S2048x2048) (constant S256x2048 .f32 0x00000000#32) (ix2 q j)
      = ∑ k : Fin 2048, x0 (ix2 q k) * x1 (ix2 k j) := by
  rw [shapeCast_self, dot_eq_plain]
  exact Cert.LibPlainDot.matmul_zero_apply none _ x1 q j

/-- The first stored row at `q`: row `q` of the product against column `q` of the column block. -/
theorem triRow_apply [Cert.KernelIdeal.Facts] (x0 : FVec Ideal S256x2048 .f32) (x1 : FVec Ideal S2048x2048 .bf16)
    (x2 : FVec Ideal S2048x256 .f32) (q : Fin 256) :
    shapeCast S1x256 (multiReduction (F := Ideal) .add [1] S256
          (mulf (matmul (F := Ideal) dot_S256x2048_S2048x2048_S256x2048_1_0_0_1_n_n none (truncf .bf16 x0 bitsLt_bf16_f32)
              (shapeCast S2048x2048 x1 shapeCasts_S2048x2048_S2048x2048) (constant S256x2048 .f32 0x00000000#32))
            (transpose S256x2048 [1, 0] x2 transposes_S2048x256_p1_0_S256x2048))
          0x00000000#32 reduces_S256x2048_S256 (.inl rfl) rfl)
        shapeCasts_S256_S1x256 (ix2 (0 : Fin 1) q)
      = ∑ j : Fin 2048, (∑ k : Fin 2048, x0 (ix2 q k) * x1 (ix2 k j)) * x2 (ix2 j q) := by
  refine (rowSum_apply _ q).trans (Finset.sum_congr rfl fun j _ => ?_)
  rw [mulf_apply, prod_apply x0 x1 q j, transpose_ix2_apply]

theorem pay1_apply [Cert.KernelIdeal.Facts] (x0 : Vec Ideal Cert.KernelIdeal.S256x2048 .f32)
    (x1 : Vec Ideal Cert.KernelIdeal.S2048x2048 .bf16) (x2 : Vec Ideal Cert.KernelIdeal.S2048x256 .f32) (q : Fin 256) :
    Cert.KernelIdeal.Gen.k0_pay1 (F := Ideal) x0 x1 x2 (ix2 (0 : Fin 1) q)
      = ∑ j : Fin 2048, (∑ k : Fin 2048, x0 (ix2 q k) * x1 (ix2 k j)) * x2 (ix2 j q) :=
  triRow_apply x0 x1 x2 q

theorem pay1_apply' [Cert.KernelIdeal.Facts] (x0 : Vec Ideal Cert.KernelIdeal.S256x2048 .f32)
    (x1 : Vec Ideal Cert.KernelIdeal.S2048x2048 .bf16) (x2 : Vec Ideal Cert.KernelIdeal.S2048x256 .f32) (q : Fin 256) :
    Cert.KernelIdeal.Gen.k1_pay1 (F := Ideal) x0 x1 x2 (ix2 (0 : Fin 1) q)
      = ∑ j : Fin 2048, (∑ k : Fin 2048, x0 (ix2 q k) * x1 (ix2 k j)) * x2 (ix2 j q) :=
  triRow_apply x0 x1 x2 q

theorem pay2_apply' [Cert.KernelIdeal.Facts] (x0 : Vec Ideal Cert.KernelIdeal.S256x2048 .f32) (q : Fin 256) :
    Cert.KernelIdeal.Gen.k1_pay2 (F := Ideal) x0 (ix2 (0 : Fin 1) q) = ∑ k : Fin 2048, x0 (ix2 q k) :=
  rowSum_apply x0 q

/-- A one-row array of 2048 values re-shaped to a vector reads, at `r`, the row's entry `r`. -/
theorem cast_row_apply (x : Vec Ideal ⟨2, ![1, 2048]⟩ .f32) (h : (⟨2, ![1, 2048]⟩ : Shape).ShapeCasts ⟨1, ![2048]⟩)
    (r : Fin 2048) : shapeCast (⟨1, ![2048]⟩ : Shape) x h (ix1 r) = x (ix2 (0 : Fin 1) r) :=
  shapeCast_1a_a_apply x h r

theorem pay2_apply [Cert.KernelIdeal.Facts] (x0 : Vec Ideal Cert.KernelIdeal.S256x2048 .f32) (q : Fin 256) :
    Cert.KernelIdeal.Gen.k0_pay2 (F := Ideal) x0 (ix2 (0 : Fin 1) q) = ∑ k : Fin 2048, x0 (ix2 q k) :=
  rowSum_apply x0 q

end Cert.TriDeg

end
-- ==== Proof.Spec.lean ====
/-
  The specification both programs meet, as functions of the two 2048 × 2048 arrays, at the ideal values.

  For a square array A and a row r, the row's DEGREE is the sum of row r, deg_r = Σ_k A[r,k], and the row's TRIANGLE
  COUNT is the r-th diagonal entry of A·A·A written without the cube: tri_r = Σ_j (Σ_k A[r,k] · A[k,j]) · A[j,r], the
  r-th row of A·A against the r-th column of A. Both are finite sums in the extended reals, a commutative monoid under
  addition, so no finiteness of the entries is asked.

  The rest of either program is one and the same tail of three scalars over the four vectors (tri₁, deg₁, tri₂, deg₂):
  the degree similarity exp(−mean |deg₁ − deg₂|); the clustering similarity exp(−mean |c₁ − c₂|) with
  c = tri / (s · (s − 1)) and s the degree made safe (1 where the degree is below 2); and their mean. It is stated
  once, over the vectors, and never opened: the two programs agree because they feed it equal vectors. This module
  imports no program; the shape facts the tail's operations cite are hypotheses.
-/
import Idealize.ShloMosaic.PureOps.Ideal
import Idealize.ShloMosaic.PureOps.Ideal.Laws
import Idealize.ShloMosaic.Lib.ValueIdx

noncomputable section

open scoped BigOperators

namespace Cert.TriDeg

open Idealize.ShloMosaic Idealize.ShloMosaic.ValueIdx

/-- The scalar shape, the vector of 2048 rows, and the square array. -/
local notation "Sc" => (⟨0, ![]⟩ : Shape)
local notation "Vc" => (⟨1, ![2048]⟩ : Shape)
local notation "Mx" => (⟨2, ![2048, 2048]⟩ : Shape)

/-! ## Degrees and triangle counts -/

/-- The degree of row `r`: the sum of the row. -/
def degAt (A : Shape.Idx Mx → EReal) (r : Fin 2048) : EReal := ∑ k : Fin 2048, A (ix2 r k)

/-- The triangle count of row `r`: row `r` of `A · A` against column `r` of `A`. -/
def triAt (A : Shape.Idx Mx → EReal) (r : Fin 2048) : EReal :=
  ∑ j : Fin 2048, (∑ k : Fin 2048, A (ix2 r k) * A (ix2 k j)) * A (ix2 j r)

/-- The degrees as a vector over the rows. -/
def degV (A : Shape.Idx Mx → EReal) : Shape.Idx Vc → EReal := fun i => degAt A (i 0)

/-- The triangle counts as a vector over the rows. -/
def triV (A : Shape.Idx Mx → EReal) : Shape.Idx Vc → EReal := fun i => triAt A (i 0)

theorem degV_ix1 (A : Shape.Idx Mx → EReal) (r : Fin 2048) : degV A (ix1 r) = degAt A r := rfl
theorem triV_ix1 (A : Shape.Idx Mx → EReal) (r : Fin 2048) : triV A (ix1 r) = triAt A r := rfl

/-! ## The tail: three scalars of the four vectors -/

/-- The degree similarity: `exp (−(Σ_r |d₁ r − d₂ r|) / 2048)`. -/
def simDeg (hred : Shape.ReducesTo Vc [0] Sc) (hpos : 0 < Shape.numel Sc) (d1 d2 : Vec Ideal Vc .f32) : Vec Ideal Sc .f32 :=
  Host.exp (Host.negf (Host.divf (Host.reduceAdd (Host.absf (subf d1 d2)) (constant (F := Ideal) Sc .f32 0x00000000#32) hred hpos) (constant (F := Ideal) Sc .f32 0x45000000#32)))

/-- The clustering similarity: `exp (−(Σ_r |c₁ r − c₂ r|) / 2048)`, where `c = t / (s · (s − 1))` and `s` is the degree
    with 1 in place of every degree below 2. -/
def simClu (hred : Shape.ReducesTo Vc [0] Sc) (hpos : 0 < Shape.numel Sc) (hb : Shape.BroadcastsInDim Sc Vc (![] : Fin 0 → Fin 1))
    (t1 d1 t2 d2 : Vec Ideal Vc .f32) : Vec Ideal Sc .f32 :=
  Host.exp (Host.negf (Host.divf (Host.reduceAdd (Host.absf (subf (Host.divf t1 (mulf (select (cmpf .olt d1 (broadcastInDim Vc ![] hb (constant (F := Ideal) Sc .f32 0x40000000#32))) (broadcastInDim Vc ![] hb (id (constant (F := Ideal) Sc .f32 0x3F800000#32))) d1) (subf (select (cmpf .olt d1 (broadcastInDim Vc ![] hb (constant (F := Ideal) Sc .f32 0x40000000#32))) (broadcastInDim Vc ![] hb (id (constant (F := Ideal) Sc .f32 0x3F800000#32))) d1) (broadcastInDim Vc ![] hb (constant (F := Ideal) Sc .f32 0x3F800000#32))))) (Host.divf t2 (mulf (select (cmpf .olt d2 (broadcastInDim Vc ![] hb (constant (F := Ideal) Sc .f32 0x40000000#32))) (broadcastInDim Vc ![] hb (id (constant (F := Ideal) Sc .f32 0x3F800000#32))) d2) (subf (select (cmpf .olt d2 (broadcastInDim Vc ![] hb (constant (F := Ideal) Sc .f32 0x40000000#32))) (broadcastInDim Vc ![] hb (id (constant (F := Ideal) Sc .f32 0x3F800000#32))) d2) (broadcastInDim Vc ![] hb (constant (F := Ideal) Sc .f32 0x3F800000#32))))))) (constant (F := Ideal) Sc .f32 0x00000000#32) hred hpos) (constant (F := Ideal) Sc .f32 0x45000000#32)))

/-- The overall similarity: the mean of the two. -/
def simAll (hred : Shape.ReducesTo Vc [0] Sc) (hpos : 0 < Shape.numel Sc) (hb : Shape.BroadcastsInDim Sc Vc (![] : Fin 0 → Fin 1))
    (t1 d1 t2 d2 : Vec Ideal Vc .f32) : Vec Ideal Sc .f32 :=
  Host.divf (addf (simDeg hred hpos d1 d2) (simClu hred hpos hb t1 d1 t2 d2)) (constant (F := Ideal) Sc .f32 0x40000000#32)

end Cert.TriDeg

end
-- ==== Proof.BlocksIdeal.lean ====
/-
  One grid point's two stored values, given what its three input blocks hold. Point `b` of a call is handed rows
  `256 b … 256 b + 255` of a graph `A`, the whole of `A`, and columns `256 b … 256 b + 255` of `A`; entry `q` of what
  it stores is then the triangle count, resp. the degree, of row `256 b + q` of `A`.
-/
import proofs.«173556_j35811437314538_2_alg».proof.Proof.Payload
import proofs.«173556_j35811437314538_2_alg».proof.Proof.Spec

noncomputable section

namespace Cert.TriDeg

open Idealize.ShloMosaic ValueIdx Cert.KernelIdeal Cert.KernelIdeal.Gen

/-- The row of the graph that entry `q` of point `b`'s block is about. -/
def rowOf (b : Fin 8) (q : Fin 256) : Fin 2048 := ⟨256 * b.val + q.val, by omega⟩

theorem rowOf_val (b : Fin 8) (q : Fin 256) : (rowOf b q).val = 256 * b.val + q.val := rfl

variable [Cert.KernelIdeal.Facts]

/-- The first call's triangle payload at point `b`. -/
theorem triRow_block (A : (⟨2, ![2048, 2048]⟩ : Shape).Idx → EReal) (b : Fin 8)
    (x0 : Vec Ideal S256x2048 .f32) (x1 : Vec Ideal S2048x2048 .bf16) (x2 : Vec Ideal S2048x256 .f32)
    (h0 : ∀ (q : Fin 256) (k : Fin 2048), x0 (ix2 q k) = A (ix2 (rowOf b q) k))
    (h1 : ∀ (k j : Fin 2048), x1 (ix2 k j) = A (ix2 k j))
    (h2 : ∀ (j : Fin 2048) (q : Fin 256), x2 (ix2 j q) = A (ix2 j (rowOf b q)))
    (p : Fin 1) (q : Fin 256) :
    k0_pay1 (F := Ideal) x0 x1 x2 (ix2 p q) = triAt A (rowOf b q) := by
  obtain rfl : p = 0 := Subsingleton.elim _ _
  rw [pay1_apply]
  unfold triAt
  simp only [h0, h1, h2]

/-- The first call's degree payload at point `b`. -/
theorem degRow_block (A : (⟨2, ![2048, 2048]⟩ : Shape).Idx → EReal) (b : Fin 8)
    (x0 : Vec Ideal S256x2048 .f32)
    (h0 : ∀ (q : Fin 256) (k : Fin 2048), x0 (ix2 q k) = A (ix2 (rowOf b q) k))
    (p : Fin 1) (q : Fin 256) :
    k0_pay2 (F := Ideal) x0 (ix2 p q) = degAt A (rowOf b q) := by
  obtain rfl : p = 0 := Subsingleton.elim _ _
  rw [pay2_apply]
  unfold degAt
  simp only [h0]

/-- The second call's triangle payload at point `b`: the same body, run on the other graph. -/
theorem triRow_block' (A : (⟨2, ![2048, 2048]⟩ : Shape).Idx → EReal) (b : Fin 8)
    (x0 : Vec Ideal S256x2048 .f32) (x1 : Vec Ideal S2048x2048 .bf16) (x2 : Vec Ideal S2048x256 .f32)
    (h0 : ∀ (q : Fin 256) (k : Fin 2048), x0 (ix2 q k) = A (ix2 (rowOf b q) k))
    (h1 : ∀ (k j : Fin 2048), x1 (ix2 k j) = A (ix2 k j))
    (h2 : ∀ (j : Fin 2048) (q : Fin 256), x2 (ix2 j q) = A (ix2 j (rowOf b q)))
    (p : Fin 1) (q : Fin 256) :
    k1_pay1 (F := Ideal) x0 x1 x2 (ix2 p q) = triAt A (rowOf b q) := by
  obtain rfl : p = 0 := Subsingleton.elim _ _
  rw [pay1_apply']
  unfold triAt
  simp only [h0, h1, h2]

/-- The second call's degree payload at point `b`. -/
theorem degRow_block' (A : (⟨2, ![2048, 2048]⟩ : Shape).Idx → EReal) (b : Fin 8)
    (x0 : Vec Ideal S256x2048 .f32)
    (h0 : ∀ (q : Fin 256) (k : Fin 2048), x0 (ix2 q k) = A (ix2 (rowOf b q) k))
    (p : Fin 1) (q : Fin 256) :
    k1_pay2 (F := Ideal) x0 (ix2 p q) = degAt A (rowOf b q) := by
  obtain rfl : p = 0 := Subsingleton.elim _ _
  rw [pay2_apply']
  unfold degAt
  simp only [h0]

end Cert.TriDeg

end
-- ==== Proof.ValueIdeal.lean ====
/-
  The kernel's three results as functions of its two argument arrays, at exact values. Each pallas call leaves, in its
  two result rows, its graph's triangle counts `tri_r = Σ_j (Σ_k A[r,k]·A[k,j])·A[j,r]` and degrees `deg_r = Σ_k A[r,k]`:
  grid point `t` writes entries `256 t … 256 t + 255`, computed from row block `t`, the whole graph and column block
  `t`, and the eight blocks tile the row. The scalar tail then reads the four rows as vectors.
-/
import proofs.«173556_j35811437314538_2_alg».proof.Proof.RunIdeal
import proofs.«173556_j35811437314538_2_alg».proof.Proof.BlocksIdeal
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.TriDeg
open Idealize.ShloMosaic Idealize.ShloMosaic.TcCoe Idealize.ShloMosaic.Tactic Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem hz : (![0, 0] : Fin 2 → Nat) = fun _ => 0 := funext fun a => by fin_cases a <;> rfl

/-- The two graphs as launched. -/
abbrev G1 (c : Dev nD) : S2048x2048.Idx → EReal := m ((c : Thread nD τ).loc main_arg0)
abbrev G2 (c : Dev nD) : S2048x2048.Idx → EReal := m ((c : Thread nD τ).loc main_arg1)

/-! ## Pallas call 0: what it finds and what it leaves -/

theorem E1_arg0 (c : Dev nD) : (E1 m ρ c main_arg0 : S2048x2048.Idx → EReal) = G1 m c :=
  (StableHlo.after_of_writes_sub hostOps0 (W0 m ρ c) hostOps0_writes (by decide : main_arg0 ∉ hostOps0_W)).trans rfl
/-- The bf16 copy, at exact values, is the graph again. -/
theorem E1_v0 (c : Dev nD) : (E1 m ρ c main_v0 : S2048x2048.Idx → EReal) = G1 m c := by
  show StableHlo.after hostOps0 (W0 m ρ c) (Proc.devRef .tc main_v0) = _
  after_results
  rfl

/-- The printed index maps over the grid: point `t` reads row block `t`, the whole bf16 copy, column block `t`, and
    writes block `t` of each result row. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem lt8_0 (t : Fin cfg0.N) : t.val < 8 := by have h := t.isLt; have e : cfg0.N = 8 := N_0; omega

/-- The row block at point `t` holds rows `256 t …` of the graph. -/
theorem rows0 (c : Dev nD) (t : Fin cfg0.N) (q : Fin 256) (k : Fin 2048) :
    iblk0 (E1 m ρ) c 0 t (ix2 q k) = G1 m c (ix2 (rowOf ⟨t.val, lt8_0 t⟩ q) k) := by
  obtain ⟨e00, e01, -⟩ := idx0 t
  show E1 m ρ c main_arg0 (((cfg0.win 0).blk t).view.emb (ix2 q k)) = _
  rw [E1_arg0]
  refine congrArg _ ?_
  funext a; apply Fin.ext
  match a with
  | ⟨0, _⟩ => show win0_0.index t (0 : Fin 2) * 256 + 1 * q.val = 256 * t.val + q.val; omega
  | ⟨1, _⟩ => show win0_0.index t (1 : Fin 2) * 2048 + 1 * k.val = k.val; omega
/-- The bf16 copy's one block is the whole graph. -/
theorem all0 (c : Dev nD) (t : Fin cfg0.N) (k j : Fin 2048) :
    iblk0 (E1 m ρ) c 1 t (ix2 k j) = G1 m c (ix2 k j) := by
  obtain ⟨-, -, e10, e11, -⟩ := idx0 t
  show E1 m ρ c main_v0 (((cfg0.win 1).blk t).view.emb (ix2 k j)) = _
  rw [E1_v0]
  refine congrArg _ ?_
  funext a; apply Fin.ext
  match a with
  | ⟨0, _⟩ => show win0_1.index t (0 : Fin 2) * 2048 + 1 * k.val = k.val; omega
  | ⟨1, _⟩ => show win0_1.index t (1 : Fin 2) * 2048 + 1 * j.val = j.val; omega
/-- The column block at point `t` holds columns `256 t …` of the graph. -/
theorem cols0 (c : Dev nD) (t : Fin cfg0.N) (j : Fin 2048) (q : Fin 256) :
    iblk0 (E1 m ρ) c 2 t (ix2 j q) = G1 m c (ix2 j (rowOf ⟨t.val, lt8_0 t⟩ q)) := by
  obtain ⟨-, -, -, -, e20, e21, -⟩ := idx0 t
  show E1 m ρ c main_arg0 (((cfg0.win 2).blk t).view.emb (ix2 j q)) = _
  rw [E1_arg0]
  refine congrArg _ ?_
  funext a; apply Fin.ext
  match a with
  | ⟨0, _⟩ => show win0_2.index t (0 : Fin 2) * 2048 + 1 * j.val = j.val; omega
  | ⟨1, _⟩ => show win0_2.index t (1 : Fin 2) * 256 + 1 * q.val = 256 * t.val + q.val; omega

/-- What point `t` writes back to the triangle row is block `t` of the row of triangle counts. -/
theorem flushedTri0 (c : Dev nD) (t : Fin cfg0.N) :
    (dat0 (E1 m ρ) c).flushed 3 t = ((cfg0.win 3).blk t).view.read (Elt Ideal) (fun i : S1x2048.Idx => triAt (G1 m c) (i 1)) := by
  show (cfg0.win 3).cut (grid0.coords t) ((dat0 (E1 m ρ) c).after 3 t) = _
  rw [after0_3]
  unfold outTri0
  rw [View.canon_unit_zero hz]
  simp only [View.ld_unit_zero (S := S256x2048) hz, View.ld_unit_zero (S := S2048x2048) hz, View.ld_unit_zero (S := S2048x256) hz]
  obtain ⟨-, -, -, -, -, -, e30, e31, e40, e41⟩ := idx0 t
  funext j
  obtain ⟨p, q, rfl⟩ : ∃ (p : Fin 1) (q : Fin 256), j = ix2 p q := ⟨j 0, j 1, eq_ix2 j⟩
  refine (triRow_block (G1 m c) ⟨t.val, lt8_0 t⟩ _ _ _ (rows0 m ρ c t) (all0 m ρ c t) (cols0 m ρ c t) p q).trans ?_
  show triAt (G1 m c) (rowOf ⟨t.val, lt8_0 t⟩ q) = triAt (G1 m c) ((((cfg0.win 3).blk t).view.emb (ix2 p q)) 1)
  refine congrArg _ (Fin.ext ?_)
  show 256 * t.val + q.val = win0_3.index t (1 : Fin 2) * 256 + 1 * q.val
  omega

theorem mem_blkTri0 (t : Fin cfg0.N) (i : S1x2048.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v2_0).slice (win0_3.rect t)).set ↔ _
  rw [View.set_slice_whole, Rect.mem_set_unit]
  exact Iff.rfl

/-- Every entry of the row is in the block of the point its column's block names. -/
theorem coverTri0 (i : S1x2048.Idx) : ∃ t : Fin cfg0.N, (cfg0.win 3).flush t = true ∧ i ∈ ((cfg0.win 3).blk t).view.set := by
  have hi0 : (i 0).val < 1 := (i 0).isLt
  have hi1 : (i 1).val < 2048 := (i 1).isLt
  have hN : cfg0.N = 8 := N_0
  obtain ⟨t, ht⟩ : ∃ t : Fin cfg0.N, t.val = (i 1).val / 256 := ⟨⟨(i 1).val / 256, by omega⟩, rfl⟩
  obtain ⟨-, -, -, -, -, -, e30, e31, e40, e41⟩ := idx0 t
  refine ⟨t, flush0_3 t, ?_⟩
  rw [mem_blkTri0]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 256 ≤ (i 1).val ∧ (i 1).val < win0_3.index t (1 : Fin 2) * 256 + 256; omega

/-- The call leaves the row of its graph's triangle counts. -/
theorem tri0_eq (c : Dev nD) : tri0 m ρ c = fun i : S1x2048.Idx => triAt (G1 m c) (i 1) :=
  (dat0 (E1 m ρ) c).arrAt_eq_of_cover 3 _ (fun t _ => flushedTri0 m ρ c t) coverTri0

/-- What point `t` writes back to the degree row is block `t` of the row of degrees. -/
theorem flushedDeg0 (c : Dev nD) (t : Fin cfg0.N) :
    (dat0 (E1 m ρ) c).flushed 4 t = ((cfg0.win 4).blk t).view.read (Elt Ideal) (fun i : S1x2048.Idx => degAt (G1 m c) (i 1)) := by
  show (cfg0.win 4).cut (grid0.coords t) ((dat0 (E1 m ρ) c).after 4 t) = _
  rw [after0_4]
  unfold outDeg0
  rw [View.canon_unit_zero hz]
  simp only [View.ld_unit_zero (S := S256x2048) hz, View.ld_unit_zero (S := S2048x2048) hz, View.ld_unit_zero (S := S2048x256) hz]
  obtain ⟨-, -, -, -, -, -, e30, e31, e40, e41⟩ := idx0 t
  funext j
  obtain ⟨p, q, rfl⟩ : ∃ (p : Fin 1) (q : Fin 256), j = ix2 p q := ⟨j 0, j 1, eq_ix2 j⟩
  refine (degRow_block (G1 m c) ⟨t.val, lt8_0 t⟩ _ (rows0 m ρ c t) p q).trans ?_
  show degAt (G1 m c) (rowOf ⟨t.val, lt8_0 t⟩ q) = degAt (G1 m c) ((((cfg0.win 4).blk t).view.emb (ix2 p q)) 1)
  refine congrArg _ (Fin.ext ?_)
  show 256 * t.val + q.val = win0_4.index t (1 : Fin 2) * 256 + 1 * q.val
  omega

theorem mem_blkDeg0 (t : Fin cfg0.N) (i : S1x2048.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v2_1).slice (win0_4.rect t)).set ↔ _
  rw [View.set_slice_whole, Rect.mem_set_unit]
  exact Iff.rfl

/-- Every entry of the row is in the block of the point its column's block names. -/
theorem coverDeg0 (i : S1x2048.Idx) : ∃ t : Fin cfg0.N, (cfg0.win 4).flush t = true ∧ i ∈ ((cfg0.win 4).blk t).view.set := by
  have hi0 : (i 0).val < 1 := (i 0).isLt
  have hi1 : (i 1).val < 2048 := (i 1).isLt
  have hN : cfg0.N = 8 := N_0
  obtain ⟨t, ht⟩ : ∃ t : Fin cfg0.N, t.val = (i 1).val / 256 := ⟨⟨(i 1).val / 256, by omega⟩, rfl⟩
  obtain ⟨-, -, -, -, -, -, e30, e31, e40, e41⟩ := idx0 t
  refine ⟨t, flush0_4 t, ?_⟩
  rw [mem_blkDeg0]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 256 ≤ (i 1).val ∧ (i 1).val < win0_4.index t (1 : Fin 2) * 256 + 256; omega

/-- The call leaves the row of its graph's degrees. -/
theorem deg0_eq (c : Dev nD) : deg0 m ρ c = fun i : S1x2048.Idx => degAt (G1 m c) (i 1) :=
  (dat0 (E1 m ρ) c).arrAt_eq_of_cover 4 _ (fun t _ => flushedDeg0 m ρ c t) coverDeg0

/-! ## Pallas call 1: what it finds and what it leaves -/

theorem E3_arg1 (c : Dev nD) : (E3 m ρ c main_arg1 : S2048x2048.Idx → EReal) = G2 m c :=
  (StableHlo.after_of_writes_sub hostOps1 (W2 m ρ c) hostOps1_writes (by decide : main_arg1 ∉ hostOps1_W)).trans <|
  (W2_of_ne m ρ c main_arg1 (by decide) (by decide)).trans <|
  (StableHlo.after_of_writes_sub hostOps0 (W0 m ρ c) hostOps0_writes (by decide : main_arg1 ∉ hostOps0_W)).trans rfl
/-- The bf16 copy, at exact values, is the graph again; the first call and the reshapes between leave it alone. -/
theorem E3_v1 (c : Dev nD) : (E3 m ρ c main_v1 : S2048x2048.Idx → EReal) = G2 m c :=
  (StableHlo.after_of_writes_sub hostOps1 (W2 m ρ c) hostOps1_writes (by decide : main_v1 ∉ hostOps1_W)).trans <|
  (W2_of_ne m ρ c main_v1 (by decide) (by decide)).trans <| by
    show StableHlo.after hostOps0 (W0 m ρ c) (Proc.devRef .tc main_v1) = _
    after_results
    rfl

/-- The printed index maps over the grid: point `t` reads row block `t`, the whole bf16 copy, column block `t`, and
    writes block `t` of each result row. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

theorem lt8_1 (t : Fin cfg1.N) : t.val < 8 := by have h := t.isLt; have e : cfg1.N = 8 := N_1; omega

/-- The row block at point `t` holds rows `256 t …` of the graph. -/
theorem rows1 (c : Dev nD) (t : Fin cfg1.N) (q : Fin 256) (k : Fin 2048) :
    iblk1 (E3 m ρ) c 0 t (ix2 q k) = G2 m c (ix2 (rowOf ⟨t.val, lt8_1 t⟩ q) k) := by
  obtain ⟨e00, e01, -⟩ := idx1 t
  show E3 m ρ c main_arg1 (((cfg1.win 0).blk t).view.emb (ix2 q k)) = _
  rw [E3_arg1]
  refine congrArg _ ?_
  funext a; apply Fin.ext
  match a with
  | ⟨0, _⟩ => show win1_0.index t (0 : Fin 2) * 256 + 1 * q.val = 256 * t.val + q.val; omega
  | ⟨1, _⟩ => show win1_0.index t (1 : Fin 2) * 2048 + 1 * k.val = k.val; omega
/-- The bf16 copy's one block is the whole graph. -/
theorem all1 (c : Dev nD) (t : Fin cfg1.N) (k j : Fin 2048) :
    iblk1 (E3 m ρ) c 1 t (ix2 k j) = G2 m c (ix2 k j) := by
  obtain ⟨-, -, e10, e11, -⟩ := idx1 t
  show E3 m ρ c main_v1 (((cfg1.win 1).blk t).view.emb (ix2 k j)) = _
  rw [E3_v1]
  refine congrArg _ ?_
  funext a; apply Fin.ext
  match a with
  | ⟨0, _⟩ => show win1_1.index t (0 : Fin 2) * 2048 + 1 * k.val = k.val; omega
  | ⟨1, _⟩ => show win1_1.index t (1 : Fin 2) * 2048 + 1 * j.val = j.val; omega
/-- The column block at point `t` holds columns `256 t …` of the graph. -/
theorem cols1 (c : Dev nD) (t : Fin cfg1.N) (j : Fin 2048) (q : Fin 256) :
    iblk1 (E3 m ρ) c 2 t (ix2 j q) = G2 m c (ix2 j (rowOf ⟨t.val, lt8_1 t⟩ q)) := by
  obtain ⟨-, -, -, -, e20, e21, -⟩ := idx1 t
  show E3 m ρ c main_arg1 (((cfg1.win 2).blk t).view.emb (ix2 j q)) = _
  rw [E3_arg1]
  refine congrArg _ ?_
  funext a; apply Fin.ext
  match a with
  | ⟨0, _⟩ => show win1_2.index t (0 : Fin 2) * 2048 + 1 * j.val = j.val; omega
  | ⟨1, _⟩ => show win1_2.index t (1 : Fin 2) * 256 + 1 * q.val = 256 * t.val + q.val; omega

/-- What point `t` writes back to the triangle row is block `t` of the row of triangle counts. -/
theorem flushedTri1 (c : Dev nD) (t : Fin cfg1.N) :
    (dat1 (E3 m ρ) c).flushed 3 t = ((cfg1.win 3).blk t).view.read (Elt Ideal) (fun i : S1x2048.Idx => triAt (G2 m c) (i 1)) := by
  show (cfg1.win 3).cut (grid1.coords t) ((dat1 (E3 m ρ) c).after 3 t) = _
  rw [after1_3]
  unfold outTri1
  rw [View.canon_unit_zero hz]
  simp only [View.ld_unit_zero (S := S256x2048) hz, View.ld_unit_zero (S := S2048x2048) hz, View.ld_unit_zero (S := S2048x256) hz]
  obtain ⟨-, -, -, -, -, -, e30, e31, e40, e41⟩ := idx1 t
  funext j
  obtain ⟨p, q, rfl⟩ : ∃ (p : Fin 1) (q : Fin 256), j = ix2 p q := ⟨j 0, j 1, eq_ix2 j⟩
  refine (triRow_block' (G2 m c) ⟨t.val, lt8_1 t⟩ _ _ _ (rows1 m ρ c t) (all1 m ρ c t) (cols1 m ρ c t) p q).trans ?_
  show triAt (G2 m c) (rowOf ⟨t.val, lt8_1 t⟩ q) = triAt (G2 m c) ((((cfg1.win 3).blk t).view.emb (ix2 p q)) 1)
  refine congrArg _ (Fin.ext ?_)
  show 256 * t.val + q.val = win1_3.index t (1 : Fin 2) * 256 + 1 * q.val
  omega

theorem mem_blkTri1 (t : Fin cfg1.N) (i : S1x2048.Idx) :
    i ∈ ((cfg1.win 3).blk t).view.set ↔ ∀ a : Fin 2, win1_3.index t a * S1x256.size a ≤ (i a).val ∧ (i a).val < win1_3.index t a * S1x256.size a + S1x256.size a := by
  show i ∈ ((View.whole main_v5_0).slice (win1_3.rect t)).set ↔ _
  rw [View.set_slice_whole, Rect.mem_set_unit]
  exact Iff.rfl

/-- Every entry of the row is in the block of the point its column's block names. -/
theorem coverTri1 (i : S1x2048.Idx) : ∃ t : Fin cfg1.N, (cfg1.win 3).flush t = true ∧ i ∈ ((cfg1.win 3).blk t).view.set := by
  have hi0 : (i 0).val < 1 := (i 0).isLt
  have hi1 : (i 1).val < 2048 := (i 1).isLt
  have hN : cfg1.N = 8 := N_1
  obtain ⟨t, ht⟩ : ∃ t : Fin cfg1.N, t.val = (i 1).val / 256 := ⟨⟨(i 1).val / 256, by omega⟩, rfl⟩
  obtain ⟨-, -, -, -, -, -, e30, e31, e40, e41⟩ := idx1 t
  refine ⟨t, flush1_3 t, ?_⟩
  rw [mem_blkTri1]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 256 ≤ (i 1).val ∧ (i 1).val < win1_3.index t (1 : Fin 2) * 256 + 256; omega

/-- The call leaves the row of its graph's triangle counts. -/
theorem tri1_eq (c : Dev nD) : tri1 m ρ c = fun i : S1x2048.Idx => triAt (G2 m c) (i 1) :=
  (dat1 (E3 m ρ) c).arrAt_eq_of_cover 3 _ (fun t _ => flushedTri1 m ρ c t) coverTri1

/-- What point `t` writes back to the degree row is block `t` of the row of degrees. -/
theorem flushedDeg1 (c : Dev nD) (t : Fin cfg1.N) :
    (dat1 (E3 m ρ) c).flushed 4 t = ((cfg1.win 4).blk t).view.read (Elt Ideal) (fun i : S1x2048.Idx => degAt (G2 m c) (i 1)) := by
  show (cfg1.win 4).cut (grid1.coords t) ((dat1 (E3 m ρ) c).after 4 t) = _
  rw [after1_4]
  unfold outDeg1
  rw [View.canon_unit_zero hz]
  simp only [View.ld_unit_zero (S := S256x2048) hz, View.ld_unit_zero (S := S2048x2048) hz, View.ld_unit_zero (S := S2048x256) hz]
  obtain ⟨-, -, -, -, -, -, e30, e31, e40, e41⟩ := idx1 t
  funext j
  obtain ⟨p, q, rfl⟩ : ∃ (p : Fin 1) (q : Fin 256), j = ix2 p q := ⟨j 0, j 1, eq_ix2 j⟩
  refine (degRow_block' (G2 m c) ⟨t.val, lt8_1 t⟩ _ (rows1 m ρ c t) p q).trans ?_
  show degAt (G2 m c) (rowOf ⟨t.val, lt8_1 t⟩ q) = degAt (G2 m c) ((((cfg1.win 4).blk t).view.emb (ix2 p q)) 1)
  refine congrArg _ (Fin.ext ?_)
  show 256 * t.val + q.val = win1_4.index t (1 : Fin 2) * 256 + 1 * q.val
  omega

theorem mem_blkDeg1 (t : Fin cfg1.N) (i : S1x2048.Idx) :
    i ∈ ((cfg1.win 4).blk t).view.set ↔ ∀ a : Fin 2, win1_4.index t a * S1x256.size a ≤ (i a).val ∧ (i a).val < win1_4.index t a * S1x256.size a + S1x256.size a := by
  show i ∈ ((View.whole main_v5_1).slice (win1_4.rect t)).set ↔ _
  rw [View.set_slice_whole, Rect.mem_set_unit]
  exact Iff.rfl

/-- Every entry of the row is in the block of the point its column's block names. -/
theorem coverDeg1 (i : S1x2048.Idx) : ∃ t : Fin cfg1.N, (cfg1.win 4).flush t = true ∧ i ∈ ((cfg1.win 4).blk t).view.set := by
  have hi0 : (i 0).val < 1 := (i 0).isLt
  have hi1 : (i 1).val < 2048 := (i 1).isLt
  have hN : cfg1.N = 8 := N_1
  obtain ⟨t, ht⟩ : ∃ t : Fin cfg1.N, t.val = (i 1).val / 256 := ⟨⟨(i 1).val / 256, by omega⟩, rfl⟩
  obtain ⟨-, -, -, -, -, -, e30, e31, e40, e41⟩ := idx1 t
  refine ⟨t, flush1_4 t, ?_⟩
  rw [mem_blkDeg1]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 256 ≤ (i 1).val ∧ (i 1).val < win1_4.index t (1 : Fin 2) * 256 + 256; omega

/-- The call leaves the row of its graph's degrees. -/
theorem deg1_eq (c : Dev nD) : deg1 m ρ c = fun i : S1x2048.Idx => degAt (G2 m c) (i 1) :=
  (dat1 (E3 m ρ) c).arrAt_eq_of_cover 4 _ (fun t _ => flushedDeg1 m ρ c t) coverDeg1

/-! ## The scalar tail

The host operations after the calls read the four result rows, reshaped to vectors, and nothing else of what the calls
did; their composition is the three similarity scores as functions of those four vectors. -/

/-- A result row `[1, 2048]` read as a vector. -/
def rowVec (x : FVec Ideal S1x2048 .f32) : FVec Ideal S2048 .f32 := fun i => shapeCast S2048 x shapeCasts_S1x2048_S2048 i

theorem rowVec_tri (A : S2048x2048.Idx → EReal) : rowVec (fun i : S1x2048.Idx => triAt A (i 1)) = triV A := by
  funext i
  obtain ⟨r, rfl⟩ : ∃ r : Fin 2048, i = ix1 r := ⟨i 0, eq_ix1 i⟩
  show shapeCast S2048 (fun i : S1x2048.Idx => triAt A (i 1)) shapeCasts_S1x2048_S2048 (ix1 r) = _
  rw [cast_row_apply]
  rfl
theorem rowVec_deg (A : S2048x2048.Idx → EReal) : rowVec (fun i : S1x2048.Idx => degAt A (i 1)) = degV A := by
  funext i
  obtain ⟨r, rfl⟩ : ∃ r : Fin 2048, i = ix1 r := ⟨i 0, eq_ix1 i⟩
  show shapeCast S2048 (fun i : S1x2048.Idx => degAt A (i 1)) shapeCasts_S1x2048_S2048 (ix1 r) = _
  rw [cast_row_apply]
  rfl

theorem W3_v3 (c : Dev nD) : W3 m ρ c (Proc.devRef .tc main_v3) = rowVec (W2 m ρ c (Proc.devRef .tc main_v2_0)) := by
  show StableHlo.after hostOps1 (W2 m ρ c) (Proc.devRef .tc main_v3) = _
  after_results
  rfl
theorem W3_v4 (c : Dev nD) : W3 m ρ c (Proc.devRef .tc main_v4) = rowVec (W2 m ρ c (Proc.devRef .tc main_v2_1)) := by
  show StableHlo.after hostOps1 (W2 m ρ c) (Proc.devRef .tc main_v4) = _
  after_results
  rfl

/-- The four vectors the tail reads are the two graphs' triangle counts and degrees. -/
theorem kTri1 (c : Dev nD) : W4 m ρ c (Proc.devRef .tc main_v3) = triV (G1 m c) :=
  (W4_of_ne m ρ c main_v3 (by decide) (by decide)).trans <| (W3_v3 m ρ c).trans <|
    (congrArg rowVec ((W2_tri m ρ c).trans (tri0_eq m ρ c))).trans (rowVec_tri _)
theorem kDeg1 (c : Dev nD) : W4 m ρ c (Proc.devRef .tc main_v4) = degV (G1 m c) :=
  (W4_of_ne m ρ c main_v4 (by decide) (by decide)).trans <| (W3_v4 m ρ c).trans <|
    (congrArg rowVec ((W2_deg m ρ c).trans (deg0_eq m ρ c))).trans (rowVec_deg _)
theorem kTri2 (c : Dev nD) : rowVec (W4 m ρ c (Proc.devRef .tc main_v5_0)) = triV (G2 m c) :=
  (congrArg rowVec ((W4_tri m ρ c).trans (tri1_eq m ρ c))).trans (rowVec_tri _)
theorem kDeg2 (c : Dev nD) : rowVec (W4 m ρ c (Proc.devRef .tc main_v5_1)) = degV (G2 m c) :=
  (congrArg rowVec ((W4_deg m ρ c).trans (deg1_eq m ρ c))).trans (rowVec_deg _)

theorem W9_v13 (c : Dev nD) : W9 m ρ c (Proc.devRef .tc main_v13)
    = simDeg reducesTo_S2048_S_d0 h_S_ (W4 m ρ c (Proc.devRef .tc main_v4)) (rowVec (W4 m ρ c (Proc.devRef .tc main_v5_1))) := by
  dsimp only [W9, W8, W7, W6, W5]
  after_results_simp
  rfl
theorem W9_v33 (c : Dev nD) : W9 m ρ c (Proc.devRef .tc main_v33)
    = simClu reducesTo_S2048_S_d0 h_S_ bcast_S_S2048 (W4 m ρ c (Proc.devRef .tc main_v3)) (W4 m ρ c (Proc.devRef .tc main_v4))
        (rowVec (W4 m ρ c (Proc.devRef .tc main_v5_0))) (rowVec (W4 m ρ c (Proc.devRef .tc main_v5_1))) := by
  dsimp only [W9, W8, W7, W6, W5]
  after_results_simp
  rfl
theorem W9_v35 (c : Dev nD) : W9 m ρ c (Proc.devRef .tc main_v35)
    = simAll reducesTo_S2048_S_d0 h_S_ bcast_S_S2048 (W4 m ρ c (Proc.devRef .tc main_v3)) (W4 m ρ c (Proc.devRef .tc main_v4))
        (rowVec (W4 m ρ c (Proc.devRef .tc main_v5_0))) (rowVec (W4 m ρ c (Proc.devRef .tc main_v5_1))) := by
  dsimp only [W9, W8, W7, W6, W5]
  after_results_simp
  rfl

/-! ## The kernel's run, read -/

/-- Every weakly fair execution of the kernel's program at exact values terminates with the three results at the
    similarity scores of the two graphs' triangle counts and degrees, the arguments unchanged. -/
theorem kernel_run : θ_run defs (onTc (τ := τ) (main (F := Ideal))) ⟨m, fun _ => 0, ρ⟩ fun r => ∀ c : Dev nD,
      r.2.mem ((c.tc : Thread nD τ).loc main_v13) = simDeg reducesTo_S2048_S_d0 h_S_ (degV (G1 m c)) (degV (G2 m c))
      ∧ r.2.mem ((c.tc : Thread nD τ).loc main_v33)
          = simClu reducesTo_S2048_S_d0 h_S_ bcast_S_S2048 (triV (G1 m c)) (degV (G1 m c)) (triV (G2 m c)) (degV (G2 m c))
      ∧ r.2.mem ((c.tc : Thread nD τ).loc main_v35)
          = simAll reducesTo_S2048_S_d0 h_S_ bcast_S_S2048 (triV (G1 m c)) (degV (G1 m c)) (triV (G2 m c)) (degV (G2 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c _ (mem_uc main_v13 (by decide))).trans ((W9_v13 m ρ c).trans (by rw [kDeg1, kDeg2])),
     (h c _ (mem_uc main_v33 (by decide))).trans ((W9_v33 m ρ c).trans (by rw [kTri1, kDeg1, kTri2, kDeg2])),
     (h c _ (mem_uc main_v35 (by decide))).trans ((W9_v35 m ρ c).trans (by rw [kTri1, kDeg1, kTri2, kDeg2])),
     (h c _ (mem_uc main_arg0 (by decide))).trans (W9_main_arg0 m ρ c),
     (h c _ (mem_uc main_arg1 (by decide))).trans (W9_main_arg1 m ρ c)⟩) (run_all m ρ)

end Cert.KernelIdeal.Hand

end
-- ==== Proof.RefValue.lean ====
/-
  The reference's results as functions of its two argument arrays, read off its run one operation at a time.

  For each argument array `a` the reference forms two vectors over the rows: the row sums of `a` (the degrees), and the
  row sums of `(a · a) ∘ aᵀ`, the entrywise product of the matrix square with the transpose (the triangle counts):
  at row `r` and column `j` that product is `(Σ_k a[r,k] · a[k,j]) · a[j,r]`. Each host sum starts from the zero word,
  which is the extended real 0. So the two vectors are the specification's `degV a` and `triV a`, and what the run
  says of its three results is the shared tail applied to those four vectors.
-/
import proofs.«173556_j35811437314538_2_alg».proof.Proof.Gen.ReferenceIdeal.Read
import proofs.«173556_j35811437314538_2_alg».proof.Proof.Spec
import proofs.«173556_j35811437314538_2_alg».proof.Proof.LibPlainDot
import proofs.«173556_j35811437314538_2_alg».proof.Proof.LibRowReduce
import Idealize.ShloMosaic.Lib.ValueLayout

noncomputable section

open scoped BigOperators

namespace Cert.TriDeg

open Cert.ReferenceIdeal Cert.ReferenceIdeal.Facts₀ Idealize.ShloMosaic Idealize.ShloMosaic.TcCoe Idealize.SL.Sem
  Idealize.ShloMosaic.StableHlo Idealize.ShloMosaic.ValueIdx

/-- The reference's degree vector of an array: the host's sum over the second axis, from the zero word. -/
def refDeg [Cert.ReferenceIdeal.Facts] (a : FVec Ideal S2048x2048 .f32) : FVec Ideal S2048 .f32 :=
  Host.reduceAdd a (constant (F := Ideal) S_ .f32 0x00000000#32) reducesTo_S2048x2048_S2048_d1 h_S_

/-- The reference's triangle vector of an array: the host's sum over the second axis of `(a · a) ∘ aᵀ`. -/
def refTri [Cert.ReferenceIdeal.Facts] (a : FVec Ideal S2048x2048 .f32) : FVec Ideal S2048 .f32 :=
  Host.reduceAdd (mulf (Host.dotGeneral dot_S2048x2048_S2048x2048_S2048x2048_1_0_0_1_n_n none a a)
      (transpose S2048x2048 [1, 0] a transposes_S2048x2048_S2048x2048_1_0))
    (constant (F := Ideal) S_ .f32 0x00000000#32) reducesTo_S2048x2048_S2048_d1 h_S_

/-- The reference's product is the plain one: rows by contraction times contraction by columns. -/
theorem refDot_eq_plain [Cert.ReferenceIdeal.Facts] :
    dot_S2048x2048_S2048x2048_S2048x2048_1_0_0_1_n_n = DotDims.plain 2048 2048 2048 := rfl

/-- The degree vector is the specification's: at row `r`, `0 + Σ_k a[r,k]`. -/
theorem refDeg_eq [Cert.ReferenceIdeal.Facts] (a : FVec Ideal S2048x2048 .f32) : refDeg a = degV a := by
  funext i
  obtain ⟨r, rfl⟩ : ∃ r : Fin 2048, i = ix1 r := ⟨i 0, eq_ix1 i⟩
  unfold refDeg
  refine (Cert.LibRowReduce.hostReduceAdd_row a _ reducesTo_S2048x2048_S2048_d1 (by decide) h_S_ r).trans ?_
  show Ideal.ofBits .f32 0x00000000#32 + _ = _
  rw [Ideal.ofBits_zero_f32, zero_add]
  rfl

/-- The triangle vector is the specification's: at row `r`, `0 + Σ_j (Σ_k a[r,k] · a[k,j]) · a[j,r]`. -/
theorem refTri_eq [Cert.ReferenceIdeal.Facts] (a : FVec Ideal S2048x2048 .f32) : refTri a = triV a := by
  funext i
  obtain ⟨r, rfl⟩ : ∃ r : Fin 2048, i = ix1 r := ⟨i 0, eq_ix1 i⟩
  unfold refTri
  refine (Cert.LibRowReduce.hostReduceAdd_row _ _ reducesTo_S2048x2048_S2048_d1 (by decide) h_S_ r).trans ?_
  show Ideal.ofBits .f32 0x00000000#32 + _ = _
  rw [Ideal.ofBits_zero_f32, zero_add, triV_ix1]
  unfold triAt
  refine Finset.sum_congr rfl fun j _ => ?_
  rw [mulf_apply, transpose_ix2_apply, refDot_eq_plain, Cert.LibPlainDot.hostDot_apply]

/-! ## The run's three result terms, over array variables, are the shared tail of the specification's vectors -/

/-- The first result: the degree similarity of the two degree vectors. -/
theorem ref_simDeg [Cert.ReferenceIdeal.Facts] (a0 a1 : FVec Ideal S2048x2048 .f32) :
    Host.exp (Host.negf (Host.divf (Host.reduceAdd (Host.absf (subf (Host.reduceAdd a0 (constant (F := Ideal) S_ .f32 0x00000000#32) reducesTo_S2048x2048_S2048_d1 h_S_) (Host.reduceAdd a1 (constant (F := Ideal) S_ .f32 0x00000000#32) reducesTo_S2048x2048_S2048_d1 h_S_))) (constant (F := Ideal) S_ .f32 0x00000000#32) reducesTo_S2048_S_d0 h_S_) (constant (F := Ideal) S_ .f32 0x45000000#32)))
      = simDeg reducesTo_S2048_S_d0 h_S_ (degV a0) (degV a1) := by
  rw [← refDeg_eq a0, ← refDeg_eq a1]
  rfl

/-- The second result: the clustering similarity of the triangle and degree vectors. -/
theorem ref_simClu [Cert.ReferenceIdeal.Facts] (a0 a1 : FVec Ideal S2048x2048 .f32) :
    Host.exp (Host.negf (Host.divf (Host.reduceAdd (Host.absf (subf (Host.divf (Host.reduceAdd (mulf (Host.dotGeneral dot_S2048x2048_S2048x2048_S2048x2048_1_0_0_1_n_n none a0 a0) (transpose S2048x2048 [1, 0] a0 transposes_S2048x2048_S2048x2048_1_0)) (constant (F := Ideal) S_ .f32 0x00000000#32) reducesTo_S2048x2048_S2048_d1 h_S_) (mulf (select (cmpf .olt (Host.reduceAdd a0 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a0 (constant (F := Ideal) S_ .f32 0x00000000#32) reducesTo_S2048x2048_S2048_d1 h_S_)) (subf (select (cmpf .olt (Host.reduceAdd a0 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a0 (constant (F := Ideal) S_ .f32 0x00000000#32) reducesTo_S2048x2048_S2048_d1 h_S_)) (broadcastInDim S2048 ![] bcast_S_S2048 (constant (F := Ideal) S_ .f32 0x3F800000#32))))) (Host.divf (Host.reduceAdd (mulf (Host.dotGeneral dot_S2048x2048_S2048x2048_S2048x2048_1_0_0_1_n_n none a1 a1) (transpose S2048x2048 [1, 0] a1 transposes_S2048x2048_S2048x2048_1_0)) (constant (F := Ideal) S_ .f32 0x00000000#32) reducesTo_S2048x2048_S2048_d1 h_S_) (mulf (select (cmpf .olt (Host.reduceAdd a1 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a1 (constant (F := Ideal) S_ .f32 0x00000000#32) reducesTo_S2048x2048_S2048_d1 h_S_)) (subf (select (cmpf .olt (Host.reduceAdd a1 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a1 (constant (F := Ideal) S_ .f32 0x00000000#32) reducesTo_S2048x2048_S2048_d1 h_S_)) (broadcastInDim S2048 ![] bcast_S_S2048 (constant (F := Ideal) S_ .f32 0x3F800000#32))))))) (constant (F := Ideal) S_ .f32 0x00000000#32) reducesTo_S2048_S_d0 h_S_) (constant (F := Ideal) S_ .f32 0x45000000#32)))
      = simClu reducesTo_S2048_S_d0 h_S_ bcast_S_S2048 (triV a0) (degV a0) (triV a1) (degV a1) := by
  rw [← refDeg_eq a0, ← refDeg_eq a1, ← refTri_eq a0, ← refTri_eq a1]
  rfl

/-- The third result: the mean of the two similarities. -/
theorem ref_simAll [Cert.ReferenceIdeal.Facts] (a0 a1 : FVec Ideal S2048x2048 .f32) :
    Host.divf (addf (Host.exp (Host.negf (Host.divf (Host.reduceAdd (Host.absf (subf (Host.reduceAdd a0 (constant (F := Ideal) S_ .f32 0x00000000#32) reducesTo_S2048x2048_S2048_d1 h_S_) (Host.reduceAdd a1 (constant (F := Ideal) S_ .f32 0x00000000#32) reducesTo_S2048x2048_S2048_d1 h_S_))) (constant (F := Ideal) S_ .f32 0x00000000#32) reducesTo_S2048_S_d0 h_S_) (constant (F := Ideal) S_ .f32 0x45000000#32)))) (Host.exp (Host.negf (Host.divf (Host.reduceAdd (Host.absf (subf (Host.divf (Host.reduceAdd (mulf (Host.dotGeneral dot_S2048x2048_S2048x2048_S2048x2048_1_0_0_1_n_n none a0 a0) (transpose S2048x2048 [1, 0] a0 transposes_S2048x2048_S2048x2048_1_0)) (constant (F := Ideal) S_ .f32 0x00000000#32) reducesTo_S2048x2048_S2048_d1 h_S_) (mulf (select (cmpf .olt (Host.reduceAdd a0 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a0 (constant (F := Ideal) S_ .f32 0x00000000#32) reducesTo_S2048x2048_S2048_d1 h_S_)) (subf (select (cmpf .olt (Host.reduceAdd a0 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a0 (constant (F := Ideal) S_ .f32 0x00000000#32) reducesTo_S2048x2048_S2048_d1 h_S_)) (broadcastInDim S2048 ![] bcast_S_S2048 (constant (F := Ideal) S_ .f32 0x3F800000#32))))) (Host.divf (Host.reduceAdd (mulf (Host.dotGeneral dot_S2048x2048_S2048x2048_S2048x2048_1_0_0_1_n_n none a1 a1) (transpose S2048x2048 [1, 0] a1 transposes_S2048x2048_S2048x2048_1_0)) (constant (F := Ideal) S_ .f32 0x00000000#32) reducesTo_S2048x2048_S2048_d1 h_S_) (mulf (select (cmpf .olt (Host.reduceAdd a1 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a1 (constant (F := Ideal) S_ .f32 0x00000000#32) reducesTo_S2048x2048_S2048_d1 h_S_)) (subf (select (cmpf .olt (Host.reduceAdd a1 (constant (F := Ideal) S_ .f32 0x00000000#32) reducesTo_S2048x2048_S2048_d1 h_S_) (broadcastInDim S2048 ![] bcast_S_S2048 (constant (F := Ideal) S_ .f32 0x40000000#32))) (broadcastInDim S2048 ![] bcast_S_S2048 (id (constant (F := Ideal) S_ .f32 0x3F800000#32))) (Host.reduceAdd a1 (constant (F := Ideal) S_ .f32 0x00000000#32) reducesTo_S2048x2048_S2048_d1 h_S_)) (broadcastInDim S2048 ![] bcast_S_S2048 (constant (F := Ideal) S_ .f32 0x3F800000#32))))))) (constant (F := Ideal) S_ .f32 0x00000000#32) reducesTo_S2048_S_d0 h_S_) (constant (F := Ideal) S_ .f32 0x45000000#32))))) (constant (F := Ideal) S_ .f32 0x40000000#32)
      = simAll reducesTo_S2048_S_d0 h_S_ bcast_S_S2048 (triV a0) (degV a0) (triV a1) (degV a1) := by
  rw [← refDeg_eq a0, ← refDeg_eq a1, ← refTri_eq a0, ← refTri_eq a1]
  rfl

set_option maxRecDepth 8192 in
/-- The reference's run: every weakly fair execution ends with the three results at the shared tail of the
    specification's degree and triangle vectors of the two argument arrays, the arguments unchanged. -/
theorem ref_run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = simDeg reducesTo_S2048_S_d0 h_S_ (degV (m ((c.tc : Thread nD τ).loc main_arg0))) (degV (m ((c.tc : Thread nD τ).loc main_arg1)))
      ∧ r.2.mem ((c.tc : Thread nD τ).loc main_v37)
          = simClu reducesTo_S2048_S_d0 h_S_ bcast_S_S2048
              (triV (m ((c.tc : Thread nD τ).loc main_arg0))) (degV (m ((c.tc : Thread nD τ).loc main_arg0)))
              (triV (m ((c.tc : Thread nD τ).loc main_arg1))) (degV (m ((c.tc : Thread nD τ).loc main_arg1)))
      ∧ r.2.mem ((c.tc : Thread nD τ).loc main_v39)
          = simAll reducesTo_S2048_S_d0 h_S_ bcast_S_S2048
              (triV (m ((c.tc : Thread nD τ).loc main_arg0))) (degV (m ((c.tc : Thread nD τ).loc main_arg0)))
              (triV (m ((c.tc : Thread nD τ).loc main_arg1))) (degV (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun r h c =>
    ⟨(h c).1.trans (ref_simDeg _ _), (h c).2.1.trans (ref_simClu _ _), (h c).2.2.1.trans (ref_simAll _ _), (h c).2.2.2⟩)
    (Cert.ReferenceIdeal.Value.run (F := Ideal) m ρ)

end Cert.TriDeg

end
-- ==== Proof.lean ====
/-
  The certificate of the triangle-and-degree similarity kernel against its jnp reference.

  Both programs take two 2048 × 2048 graphs `A₁`, `A₂` and return three scalars: with `deg_r = Σ_k A[r,k]` and
  `tri_r = Σ_j (Σ_k A[r,k]·A[k,j])·A[j,r]` for each graph, the degree similarity `exp(−mean |deg¹ − deg²|)`, the
  clustering similarity `exp(−mean |c¹ − c²|)` with `c_r = tri_r / (s_r (s_r − 1))`, `s_r = 1` where `deg_r < 2` and
  `deg_r` elsewhere, and the mean of the two. The kernel computes `tri` and `deg` in two pallas calls, one per graph,
  each over eight blocks of 256 rows (rounding the matrix product's operands to bf16 first: the identity at exact
  values), and the three scalars on the host; the reference computes everything on the host. At exact values the
  two sides are the same sums followed by the same scalar tail, literal for literal, so no finiteness is used.

  The three frames: each program runs to the end, nothing faulting, and leaves its arguments as launched — for the
  kernel's two programs from the item-by-item run of @main (each call reads its graph through two windows on one
  buffer, whose share is dealt between them), for the reference from its run. The ideal pass rewrote nothing, so the
  idealization claim is trivial. The value claim pairs the kernel's run, read, with the reference's.
-/
import proofs.«173556_j35811437314538_2_alg».proof.Defs
import proofs.«173556_j35811437314538_2_alg».proof.Proof.Gen.Kernel
import proofs.«173556_j35811437314538_2_alg».proof.Proof.Gen.KernelIdeal
import proofs.«173556_j35811437314538_2_alg».proof.Proof.Gen.ReferenceIdeal
import proofs.«173556_j35811437314538_2_alg».proof.Proof.Gen.Pre_finite_inputs
import proofs.«173556_j35811437314538_2_alg».proof.Proof.RunBits
import proofs.«173556_j35811437314538_2_alg».proof.Proof.ValueIdeal
import proofs.«173556_j35811437314538_2_alg».proof.Proof.RefValue
import Idealize.ShloMosaic.Adequacy
import Idealize.ShloMosaic.Init

noncomputable section

namespace Cert.Proof

open Idealize.ShloMosaic Idealize.SL.Sem

/-- The kernel as printed runs and leaves both graphs as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- So does the reference: its run with the results dropped. -/
theorem frame_ri : Cert.frame_ReferenceIdeal := fun m ρ _ =>
  (θ_run Cert.ReferenceIdeal.defs _ _).mono (fun _ h c => (h c).2.2.2) (Cert.TriDeg.ref_run m ρ)

/-- At exact values both programs end with the three similarity scores of the two graphs' triangle counts and degrees:
    the kernel's run read, the reference's run read, the arguments agreeing. -/
theorem algebraic : Cert.algebraic_KernelIdeal_ReferenceIdeal := by
  intro m ρ m' ρ' _ hagree
  refine ⟨_, _, _, Cert.KernelIdeal.Hand.kernel_run m ρ, ?_⟩
  refine (θ_run Cert.ReferenceIdeal.defs _ _).mono (fun _ h c => ?_) (Cert.TriDeg.ref_run m' ρ')
  obtain ⟨h1, h2, h3, h4, h5⟩ := h c
  rw [(hagree c).1, (hagree c).2] at h1 h2 h3
  exact ⟨h1, h2, h3, h4, h5⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
